-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S8x128 : Shape := ⟨2, ![8, 128]⟩
abbrev S8x512 : Shape := ⟨2, ![8, 512]⟩
abbrev S1024x512 : Shape := ⟨2, ![1024, 512]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S512 : Shape := ⟨1, ![512]⟩
abbrev S1x512 : Shape := ⟨2, ![1, 512]⟩
abbrev S_ : Shape := ⟨0, ![]⟩

abbrev nBuf : Space → Nat
  | .hbm => 20
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S8x128, .f32⟩
  | .hbm, ⟨2, _⟩ => ⟨S8x512, .f32⟩
  | .hbm, ⟨3, _⟩ => ⟨S8x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S512, .f32⟩
  | .hbm, ⟨8, _⟩ => ⟨S512, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S8x128, .f32⟩
  | .local _ .vmem, ⟨3, _⟩ => ⟨S8x512, .f32⟩
  | .local _ .vmem, ⟨4, _⟩ => ⟨S8x128, .f32⟩
  | .local _ .vmem, ⟨5, _⟩ => ⟨S8x128, .f32⟩
  | .local _ .vmem, ⟨6, _⟩ => ⟨S8x512, .f32⟩
  | .local _ .vmem, ⟨7, _⟩ => ⟨S8x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_cst_4 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v38 : BitVec 1 := Scalar.cmpi .eq arg0 c7_i32
  let v39 : BitVec 32 := Scalar.extui v38
  let c0_i32_19 : BitVec 32 := 0#32
  let v40 : BitVec 1 := Scalar.cmpi .ne v39 c0_i32_19
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  reduces_S1024x1_S1 : S1024x1.Reduces [0] S1
  shapeCasts_S1_S1x1 : S1.ShapeCasts S1x1
  reduces_S1024x512_S512 : S1024x512.Reduces [0] S512
  shapeCasts_S512_S1x512 : S512.ShapeCasts S1x512
  shapeCasts_S1x1_S1x1 : S1x1.ShapeCasts S1x1
  broadcasts_S1x1_S8x128 : S1x1.Broadcasts S8x128
  shapeCasts_S1x512_S1x512 : S1x512.ShapeCasts S1x512
  broadcasts_S1x512_S8x512 : S1x512.Broadcasts S8x512
  reducesTo_S8x128_S_d0_1 : S8x128.ReducesTo [0, 1] S_
  h_S_ : 0 < S_.numel
  reducesTo_S8x512_S512_d0 : S8x512.ReducesTo [0] S512
  reducesTo_S512_S_d0 : S512.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x128.size a
  hwx0_1 : ∀ i : grid0.Coords, EltTy.bits .f32 = 32 ∨ (Rect.block (s := S8x128) S8x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x512.size a
  hwx0_2 : ∀ i : grid0.Coords, EltTy.bits .f32 = 32 ∨ (Rect.block (s := S8x512) S8x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)

variable [Facts₀]

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S8x128.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S8x512.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S8x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun i => !(k0_cond2 i == 1#1) | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S512x8192 : Shape := ⟨2, ![512, 8192]⟩
abbrev S8192x8192 : Shape := ⟨2, ![8192, 8192]⟩
abbrev S1x8192 : Shape := ⟨2, ![1, 8192]⟩
abbrev S8192x1 : Shape := ⟨2, ![8192, 1]⟩

abbrev nBuf : Space → Nat
  | .hbm => 38
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S_, .f32⟩
  | .hbm, ⟨3, _⟩ => ⟨S8192, .f32⟩
  | .hbm, ⟨4, _⟩ => ⟨S512x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x1, .f32⟩
  | .hbm, ⟨13, _⟩ => ⟨S8192x8192, .f32⟩
  | .hbm, ⟨14, _⟩ => ⟨S8192x8192, .f32⟩
  | .hbm, ⟨15, _⟩ => ⟨S_, .i1⟩
  | .hbm, ⟨16, _⟩ => ⟨S8192x8192, .i1⟩
  | .hbm, ⟨17, _⟩ => ⟨S8192x8192, .i32⟩
  | .hbm, ⟨18, _⟩ => ⟨S_, .i32⟩
  | .hbm, ⟨19, _⟩ => ⟨S8192x8192, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S_, .i1⟩
  | .hbm, ⟨24, _⟩ => ⟨S8192x8192, .i1⟩
  | .hbm, ⟨25, _⟩ => ⟨S8192x8192, .i1⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_0 : Ref sig .tc := ⟨.hbm, 23, rfl⟩
abbrev main_call0_v5 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_call1_v0 : Ref sig .tc := ⟨.hbm, 30, rfl⟩
abbrev main_call1_v1 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_v19 : Ref sig .tc := ⟨.hbm, 37, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  transposes_S8192x512_S512x8192_1_0 : S8192x512.Transposes [1, 0] S512x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  reducesTo_S8192_S_d0 : S8192.ReducesTo [0] S_
  reducesTo_S8192x8192_S_d0_1 : S8192x8192.ReducesTo [0, 1] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.Pieces.lean ====
import proofs.«177143_j52115133169717_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-! What each control case of the body leaves in the three carried accumulators, and what the last case
    copies to the three outputs, as the body's pure terms of the tile and of the accumulators' previous
    contents: the first case starts from the reset values, the others from what the point before left. -/

theorem hz : (![0, 0] : Fin 2 → Nat) = fun _ => 0 := funext fun a => by fin_cases a <;> rfl

theorem accA_sumsq (c : Dev nD) (i : grid0.Coords) (a1 : Memref sig .tc .vmem S1024x512 .f32) (h1 : a1.IsWhole) (a2 : Memref sig .tc .vmem S8x128 .f32) (h2 : a2.IsWhole) (a3 : Memref sig .tc .vmem S8x512 .f32) (h3 : a3.IsWhole) (a4 : Memref sig .tc .vmem S8x128 .f32) (h4 : a4.IsWhole) (a5 : Memref sig .tc .vmem S8x128 .f32) (h5 : a5.IsWhole) (a6 : Memref sig .tc .vmem S8x512 .f32) (h6 : a6.IsWhole) (a7 : Memref sig .tc .vmem S8x128 .f32) (h7 : a7.IsWhole) (hc0 : cond0_0 i) (hc1 : ¬cond0_1 i) (x0 : Vec F S1024x512 .f32) :
    sout0_A_0 c i a1 h1 a2 h2 a3 h3 a4 h4 a5 h5 a6 h6 a7 h7 hc0 hc1 x0 = k0_pay6 x0 k0_pay2 := by
  unfold sout0_A_0
  rw [View.read_writes_eq_canon _ _ _ (scover0_A_0 c i a1 h1 a2 h2 a3 h3 a4 h4 a5 h5 a6 h6 a7 h7 hc0 hc1 x0)]
  unfold kernelRun0_A
  dsimp only
  sl_unfold_words
  rw [View.canon_cons_unit_zero (S := S8x128) hz, View.readCov_unit_zero (S := S8x128) _ hz]
  simp only [View.readAt_eq_ld, h1.read_unread, h5.read_unread, h6.read_unread, h7.read_unread, View.ld_unit_zero (S := S1024x512) hz, View.ld_unit_zero (S := S8x128) hz, View.ld_unit_zero (S := S8x512) hz]

theorem accA_sumvec (c : Dev nD) (i : grid0.Coords) (a1 : Memref sig .tc .vmem S1024x512 .f32) (h1 : a1.IsWhole) (a2 : Memref sig .tc .vmem S8x128 .f32) (h2 : a2.IsWhole) (a3 : Memref sig .tc .vmem S8x512 .f32) (h3 : a3.IsWhole) (a4 : Memref sig .tc .vmem S8x128 .f32) (h4 : a4.IsWhole) (a5 : Memref sig .tc .vmem S8x128 .f32) (h5 : a5.IsWhole) (a6 : Memref sig .tc .vmem S8x512 .f32) (h6 : a6.IsWhole) (a7 : Memref sig .tc .vmem S8x128 .f32) (h7 : a7.IsWhole) (hc0 : cond0_0 i) (hc1 : ¬cond0_1 i) (x0 : Vec F S1024x512 .f32) :
    sout0_A_1 c i a1 h1 a2 h2 a3 h3 a4 h4 a5 h5 a6 h6 a7 h7 hc0 hc1 x0 = k0_pay7 x0 k0_pay3 := by
  unfold sout0_A_1
  rw [View.read_writes_eq_canon _ _ _ (scover0_A_1 c i a1 h1 a2 h2 a3 h3 a4 h4 a5 h5 a6 h6 a7 h7 hc0 hc1 x0)]
  unfold kernelRun0_A
  dsimp only
  sl_unfold_words
  rw [View.canon_cons_unit_zero (S := S8x512) hz, View.readCov_unit_zero (S := S8x512) _ hz]
  simp only [View.readAt_eq_ld, h1.read_unread, h5.read_unread, h6.read_unread, h7.read_unread, View.ld_unit_zero (S := S1024x512) hz, View.ld_unit_zero (S := S8x128) hz, View.ld_unit_zero (S := S8x512) hz]

theorem accA_max (c : Dev nD) (i : grid0.Coords) (a1 : Memref sig .tc .vmem S1024x512 .f32) (h1 : a1.IsWhole) (a2 : Memref sig .tc .vmem S8x128 .f32) (h2 : a2.IsWhole) (a3 : Memref sig .tc .vmem S8x512 .f32) (h3 : a3.IsWhole) (a4 : Memref sig .tc .vmem S8x128 .f32) (h4 : a4.IsWhole) (a5 : Memref sig .tc .vmem S8x128 .f32) (h5 : a5.IsWhole) (a6 : Memref sig .tc .vmem S8x512 .f32) (h6 : a6.IsWhole) (a7 : Memref sig .tc .vmem S8x128 .f32) (h7 : a7.IsWhole) (hc0 : cond0_0 i) (hc1 : ¬cond0_1 i) (x0 : Vec F S1024x512 .f32) :
    sout0_A_2 c i a1 h1 a2 h2 a3 h3 a4 h4 a5 h5 a6 h6 a7 h7 hc0 hc1 x0 = k0_pay1 (k0_pay8 x0 k0_pay4) := by
  unfold sout0_A_2
  rw [View.read_writes_eq_canon _ _ _ (scover0_A_2 c i a1 h1 a2 h2 a3 h3 a4 h4 a5 h5 a6 h6 a7 h7 hc0 hc1 x0)]
  unfold kernelRun0_A
  dsimp only
  sl_unfold_words
  rw [View.canon_cons_unit_zero (S := S8x128) hz, View.readCov_unit_zero (S := S8x128) _ hz]
  simp only [View.readAt_eq_ld, h1.read_unread, h5.read_unread, h6.read_unread, h7.read_unread, View.ld_unit_zero (S := S1024x512) hz, View.ld_unit_zero (S := S8x128) hz, View.ld_unit_zero (S := S8x512) hz]

theorem accB_sumsq (c : Dev nD) (i : grid0.Coords) (a1 : Memref sig .tc .vmem S1024x512 .f32) (h1 : a1.IsWhole) (a2 : Memref sig .tc .vmem S8x128 .f32) (h2 : a2.IsWhole) (a3 : Memref sig .tc .vmem S8x512 .f32) (h3 : a3.IsWhole) (a4 : Memref sig .tc .vmem S8x128 .f32) (h4 : a4.IsWhole) (a5 : Memref sig .tc .vmem S8x128 .f32) (h5 : a5.IsWhole) (a6 : Memref sig .tc .vmem S8x512 .f32) (h6 : a6.IsWhole) (a7 : Memref sig .tc .vmem S8x128 .f32) (h7 : a7.IsWhole) (hc0 : ¬cond0_0 i) (hc1 : ¬cond0_1 i) (x0 : Vec F S1024x512 .f32) (xs0 : Vec F S8x128 .f32) (xs1 : Vec F S8x512 .f32) (xs2 : Vec F S8x128 .f32) :
    sout0_B_0 c i a1 h1 a2 h2 a3 h3 a4 h4 a5 h5 a6 h6 a7 h7 hc0 hc1 x0 xs0 xs1 xs2 = k0_pay6 x0 xs0 := by
  unfold sout0_B_0
  rw [View.read_writes_eq_canon _ _ _ (scover0_B_0 c i a1 h1 a2 h2 a3 h3 a4 h4 a5 h5 a6 h6 a7 h7 hc0 hc1 x0 xs0 xs1 xs2)]
  unfold kernelRun0_B
  dsimp only
  sl_unfold_words
  rw [View.canon_unit_zero (S := S8x128) hz]
  simp only [View.readAt_eq_ld, h1.read_unread, h5.read_unread, h6.read_unread, h7.read_unread, View.ld_unit_zero (S := S1024x512) hz, View.ld_unit_zero (S := S8x128) hz, View.ld_unit_zero (S := S8x512) hz]

theorem accB_sumvec (c : Dev nD) (i : grid0.Coords) (a1 : Memref sig .tc .vmem S1024x512 .f32) (h1 : a1.IsWhole) (a2 : Memref sig .tc .vmem S8x128 .f32) (h2 : a2.IsWhole) (a3 : Memref sig .tc .vmem S8x512 .f32) (h3 : a3.IsWhole) (a4 : Memref sig .tc .vmem S8x128 .f32) (h4 : a4.IsWhole) (a5 : Memref sig .tc .vmem S8x128 .f32) (h5 : a5.IsWhole) (a6 : Memref sig .tc .vmem S8x512 .f32) (h6 : a6.IsWhole) (a7 : Memref sig .tc .vmem S8x128 .f32) (h7 : a7.IsWhole) (hc0 : ¬cond0_0 i) (hc1 : ¬cond0_1 i) (x0 : Vec F S1024x512 .f32) (xs0 : Vec F S8x128 .f32) (xs1 : Vec F S8x512 .f32) (xs2 : Vec F S8x128 .f32) :
    sout0_B_1 c i a1 h1 a2 h2 a3 h3 a4 h4 a5 h5 a6 h6 a7 h7 hc0 hc1 x0 xs0 xs1 xs2 = k0_pay7 x0 xs1 := by
  unfold sout0_B_1
  rw [View.read_writes_eq_canon _ _ _ (scover0_B_1 c i a1 h1 a2 h2 a3 h3 a4 h4 a5 h5 a6 h6 a7 h7 hc0 hc1 x0 xs0 xs1 xs2)]
  unfold kernelRun0_B
  dsimp only
  sl_unfold_words
  rw [View.canon_unit_zero (S := S8x512) hz]
  simp only [View.readAt_eq_ld, h1.read_unread, h5.read_unread, h6.read_unread, h7.read_unread, View.ld_unit_zero (S := S1024x512) hz, View.ld_unit_zero (S := S8x128) hz, View.ld_unit_zero (S := S8x512) hz]

theorem accB_max (c : Dev nD) (i : grid0.Coords) (a1 : Memref sig .tc .vmem S1024x512 .f32) (h1 : a1.IsWhole) (a2 : Memref sig .tc .vmem S8x128 .f32) (h2 : a2.IsWhole) (a3 : Memref sig .tc .vmem S8x512 .f32) (h3 : a3.IsWhole) (a4 : Memref sig .tc .vmem S8x128 .f32) (h4 : a4.IsWhole) (a5 : Memref sig .tc .vmem S8x128 .f32) (h5 : a5.IsWhole) (a6 : Memref sig .tc .vmem S8x512 .f32) (h6 : a6.IsWhole) (a7 : Memref sig .tc .vmem S8x128 .f32) (h7 : a7.IsWhole) (hc0 : ¬cond0_0 i) (hc1 : ¬cond0_1 i) (x0 : Vec F S1024x512 .f32) (xs0 : Vec F S8x128 .f32) (xs1 : Vec F S8x512 .f32) (xs2 : Vec F S8x128 .f32) :
    sout0_B_2 c i a1 h1 a2 h2 a3 h3 a4 h4 a5 h5 a6 h6 a7 h7 hc0 hc1 x0 xs0 xs1 xs2 = k0_pay1 (k0_pay8 x0 xs2) := by
  unfold sout0_B_2
  rw [View.read_writes_eq_canon _ _ _ (scover0_B_2 c i a1 h1 a2 h2 a3 h3 a4 h4 a5 h5 a6 h6 a7 h7 hc0 hc1 x0 xs0 xs1 xs2)]
  unfold kernelRun0_B
  dsimp only
  sl_unfold_words
  rw [View.canon_unit_zero (S := S8x128) hz]
  simp only [View.readAt_eq_ld, h1.read_unread, h5.read_unread, h6.read_unread, h7.read_unread, View.ld_unit_zero (S := S1024x512) hz, View.ld_unit_zero (S := S8x128) hz, View.ld_unit_zero (S := S8x512) hz]

theorem accC_sumsq (c : Dev nD) (i : grid0.Coords) (a1 : Memref sig .tc .vmem S1024x512 .f32) (h1 : a1.IsWhole) (a2 : Memref sig .tc .vmem S8x128 .f32) (h2 : a2.IsWhole) (a3 : Memref sig .tc .vmem S8x512 .f32) (h3 : a3.IsWhole) (a4 : Memref sig .tc .vmem S8x128 .f32) (h4 : a4.IsWhole) (a5 : Memref sig .tc .vmem S8x128 .f32) (h5 : a5.IsWhole) (a6 : Memref sig .tc .vmem S8x512 .f32) (h6 : a6.IsWhole) (a7 : Memref sig .tc .vmem S8x128 .f32) (h7 : a7.IsWhole) (hc0 : ¬cond0_0 i) (hc1 : cond0_1 i) (x0 : Vec F S1024x512 .f32) (xs0 : Vec F S8x128 .f32) (xs1 : Vec F S8x512 .f32) (xs2 : Vec F S8x128 .f32) :
    sout0_C_0 c i a1 h1 a2 h2 a3 h3 a4 h4 a5 h5 a6 h6 a7 h7 hc0 hc1 x0 xs0 xs1 xs2 = k0_pay6 x0 xs0 := by
  unfold sout0_C_0
  rw [View.read_writes_eq_canon _ _ _ (scover0_C_0 c i a1 h1 a2 h2 a3 h3 a4 h4 a5 h5 a6 h6 a7 h7 hc0 hc1 x0 xs0 xs1 xs2)]
  unfold kernelRun0_C
  dsimp only
  sl_unfold_words
  rw [View.canon_unit_zero (S := S8x128) hz]
  simp only [View.readAt_eq_ld, h1.read_unread, h5.read_unread, h6.read_unread, h7.read_unread, View.ld_unit_zero (S := S1024x512) hz, View.ld_unit_zero (S := S8x128) hz, View.ld_unit_zero (S := S8x512) hz]

theorem accC_sumvec (c : Dev nD) (i : grid0.Coords) (a1 : Memref sig .tc .vmem S1024x512 .f32) (h1 : a1.IsWhole) (a2 : Memref sig .tc .vmem S8x128 .f32) (h2 : a2.IsWhole) (a3 : Memref sig .tc .vmem S8x512 .f32) (h3 : a3.IsWhole) (a4 : Memref sig .tc .vmem S8x128 .f32) (h4 : a4.IsWhole) (a5 : Memref sig .tc .vmem S8x128 .f32) (h5 : a5.IsWhole) (a6 : Memref sig .tc .vmem S8x512 .f32) (h6 : a6.IsWhole) (a7 : Memref sig .tc .vmem S8x128 .f32) (h7 : a7.IsWhole) (hc0 : ¬cond0_0 i) (hc1 : cond0_1 i) (x0 : Vec F S1024x512 .f32) (xs0 : Vec F S8x128 .f32) (xs1 : Vec F S8x512 .f32) (xs2 : Vec F S8x128 .f32) :
    sout0_C_1 c i a1 h1 a2 h2 a3 h3 a4 h4 a5 h5 a6 h6 a7 h7 hc0 hc1 x0 xs0 xs1 xs2 = k0_pay7 x0 xs1 := by
  unfold sout0_C_1
  rw [View.read_writes_eq_canon _ _ _ (scover0_C_1 c i a1 h1 a2 h2 a3 h3 a4 h4 a5 h5 a6 h6 a7 h7 hc0 hc1 x0 xs0 xs1 xs2)]
  unfold kernelRun0_C
  dsimp only
  sl_unfold_words
  rw [View.canon_unit_zero (S := S8x512) hz]
  simp only [View.readAt_eq_ld, h1.read_unread, h5.read_unread, h6.read_unread, h7.read_unread, View.ld_unit_zero (S := S1024x512) hz, View.ld_unit_zero (S := S8x128) hz, View.ld_unit_zero (S := S8x512) hz]

theorem accC_max (c : Dev nD) (i : grid0.Coords) (a1 : Memref sig .tc .vmem S1024x512 .f32) (h1 : a1.IsWhole) (a2 : Memref sig .tc .vmem S8x128 .f32) (h2 : a2.IsWhole) (a3 : Memref sig .tc .vmem S8x512 .f32) (h3 : a3.IsWhole) (a4 : Memref sig .tc .vmem S8x128 .f32) (h4 : a4.IsWhole) (a5 : Memref sig .tc .vmem S8x128 .f32) (h5 : a5.IsWhole) (a6 : Memref sig .tc .vmem S8x512 .f32) (h6 : a6.IsWhole) (a7 : Memref sig .tc .vmem S8x128 .f32) (h7 : a7.IsWhole) (hc0 : ¬cond0_0 i) (hc1 : cond0_1 i) (x0 : Vec F S1024x512 .f32) (xs0 : Vec F S8x128 .f32) (xs1 : Vec F S8x512 .f32) (xs2 : Vec F S8x128 .f32) :
    sout0_C_2 c i a1 h1 a2 h2 a3 h3 a4 h4 a5 h5 a6 h6 a7 h7 hc0 hc1 x0 xs0 xs1 xs2 = k0_pay1 (k0_pay8 x0 xs2) := by
  unfold sout0_C_2
  rw [View.read_writes_eq_canon _ _ _ (scover0_C_2 c i a1 h1 a2 h2 a3 h3 a4 h4 a5 h5 a6 h6 a7 h7 hc0 hc1 x0 xs0 xs1 xs2)]
  unfold kernelRun0_C
  dsimp only
  sl_unfold_words
  rw [View.canon_unit_zero (S := S8x128) hz]
  simp only [View.readAt_eq_ld, h1.read_unread, h5.read_unread, h6.read_unread, h7.read_unread, View.ld_unit_zero (S := S1024x512) hz, View.ld_unit_zero (S := S8x128) hz, View.ld_unit_zero (S := S8x512) hz]

theorem outC_sumsq (c : Dev nD) (i : grid0.Coords) (a1 : Memref sig .tc .vmem S1024x512 .f32) (h1 : a1.IsWhole) (a2 : Memref sig .tc .vmem S8x128 .f32) (h2 : a2.IsWhole) (a3 : Memref sig .tc .vmem S8x512 .f32) (h3 : a3.IsWhole) (a4 : Memref sig .tc .vmem S8x128 .f32) (h4 : a4.IsWhole) (a5 : Memref sig .tc .vmem S8x128 .f32) (h5 : a5.IsWhole) (a6 : Memref sig .tc .vmem S8x512 .f32) (h6 : a6.IsWhole) (a7 : Memref sig .tc .vmem S8x128 .f32) (h7 : a7.IsWhole) (hc0 : ¬cond0_0 i) (hc1 : cond0_1 i) (x0 : Vec F S1024x512 .f32) (xs0 : Vec F S8x128 .f32) (xs1 : Vec F S8x512 .f32) (xs2 : Vec F S8x128 .f32) :
    out0_C_1 c i a1 h1 a2 h2 a3 h3 a4 h4 a5 h5 a6 h6 a7 h7 hc0 hc1 x0 xs0 xs1 xs2 = k0_pay6 x0 xs0 := by
  unfold out0_C_1
  rw [View.read_writes_eq_canon _ _ _ (cover0_C_1 c i a1 h1 a2 h2 a3 h3 a4 h4 a5 h5 a6 h6 a7 h7 hc0 hc1 x0 xs0 xs1 xs2)]
  unfold kernelRun0_C
  dsimp only
  sl_unfold_words
  rw [View.canon_unit_zero (S := S8x128) hz, View.readCov_unit_zero (S := S8x128) _ hz]
  simp only [View.readAt_eq_ld, h1.read_unread, h5.read_unread, h6.read_unread, h7.read_unread, View.ld_unit_zero (S := S1024x512) hz, View.ld_unit_zero (S := S8x128) hz, View.ld_unit_zero (S := S8x512) hz]

theorem outC_sumvec (c : Dev nD) (i : grid0.Coords) (a1 : Memref sig .tc .vmem S1024x512 .f32) (h1 : a1.IsWhole) (a2 : Memref sig .tc .vmem S8x128 .f32) (h2 : a2.IsWhole) (a3 : Memref sig .tc .vmem S8x512 .f32) (h3 : a3.IsWhole) (a4 : Memref sig .tc .vmem S8x128 .f32) (h4 : a4.IsWhole) (a5 : Memref sig .tc .vmem S8x128 .f32) (h5 : a5.IsWhole) (a6 : Memref sig .tc .vmem S8x512 .f32) (h6 : a6.IsWhole) (a7 : Memref sig .tc .vmem S8x128 .f32) (h7 : a7.IsWhole) (hc0 : ¬cond0_0 i) (hc1 : cond0_1 i) (x0 : Vec F S1024x512 .f32) (xs0 : Vec F S8x128 .f32) (xs1 : Vec F S8x512 .f32) (xs2 : Vec F S8x128 .f32) :
    out0_C_2 c i a1 h1 a2 h2 a3 h3 a4 h4 a5 h5 a6 h6 a7 h7 hc0 hc1 x0 xs0 xs1 xs2 = k0_pay7 x0 xs1 := by
  unfold out0_C_2
  rw [View.read_writes_eq_canon _ _ _ (cover0_C_2 c i a1 h1 a2 h2 a3 h3 a4 h4 a5 h5 a6 h6 a7 h7 hc0 hc1 x0 xs0 xs1 xs2)]
  unfold kernelRun0_C
  dsimp only
  sl_unfold_words
  rw [View.canon_unit_zero (S := S8x512) hz, View.readCov_unit_zero (S := S8x512) _ hz]
  simp only [View.readAt_eq_ld, h1.read_unread, h5.read_unread, h6.read_unread, h7.read_unread, View.ld_unit_zero (S := S1024x512) hz, View.ld_unit_zero (S := S8x128) hz, View.ld_unit_zero (S := S8x512) hz]

theorem outC_max (c : Dev nD) (i : grid0.Coords) (a1 : Memref sig .tc .vmem S1024x512 .f32) (h1 : a1.IsWhole) (a2 : Memref sig .tc .vmem S8x128 .f32) (h2 : a2.IsWhole) (a3 : Memref sig .tc .vmem S8x512 .f32) (h3 : a3.IsWhole) (a4 : Memref sig .tc .vmem S8x128 .f32) (h4 : a4.IsWhole) (a5 : Memref sig .tc .vmem S8x128 .f32) (h5 : a5.IsWhole) (a6 : Memref sig .tc .vmem S8x512 .f32) (h6 : a6.IsWhole) (a7 : Memref sig .tc .vmem S8x128 .f32) (h7 : a7.IsWhole) (hc0 : ¬cond0_0 i) (hc1 : cond0_1 i) (x0 : Vec F S1024x512 .f32) (xs0 : Vec F S8x128 .f32) (xs1 : Vec F S8x512 .f32) (xs2 : Vec F S8x128 .f32) :
    out0_C_3 c i a1 h1 a2 h2 a3 h3 a4 h4 a5 h5 a6 h6 a7 h7 hc0 hc1 x0 xs0 xs1 xs2 = k0_pay1 (k0_pay8 x0 xs2) := by
  unfold out0_C_3
  rw [View.read_writes_eq_canon _ _ _ (cover0_C_3 c i a1 h1 a2 h2 a3 h3 a4 h4 a5 h5 a6 h6 a7 h7 hc0 hc1 x0 xs0 xs1 xs2)]
  unfold kernelRun0_C
  dsimp only
  sl_unfold_words
  rw [View.canon_unit_zero (S := S8x128) hz, View.readCov_unit_zero (S := S8x128) _ hz]
  simp only [View.readAt_eq_ld, h1.read_unread, h5.read_unread, h6.read_unread, h7.read_unread, View.ld_unit_zero (S := S1024x512) hz, View.ld_unit_zero (S := S8x128) hz, View.ld_unit_zero (S := S8x512) hz]

end Cert.KernelIdeal.Pieces
end
-- ==== Proof.Accum.lean ====
import proofs.«177143_j52115133169717_2_alg».proof.Proof.Pieces

noncomputable section

open Idealize.ShloMosaic Idealize.ShloMosaic.TcCoe Idealize.SL.Sem
open Idealize.ShloMosaic.Pipeline (Dat)

/-! The three accumulators across the grid. After tile n they hold the fold, in tile order, of the
    body's three update terms: from the reset values at tile 0 (zero, zero, minus infinity), each later
    tile updates what the tile before left. The carried scratch contents the frame run found are this
    fold, and at the last tile the three outputs receive a copy of it. -/

namespace Cert.KernelIdeal.Accum

open Cert.KernelIdeal Cert.KernelIdeal.Gen Cert.KernelIdeal.Pieces

variable {F : FTy → Type} [FloatOps F]
variable (m : (ℓ : Loc nD τ sig) → Buf (Elt F) ℓ)

/-- One tile's update of the three accumulators (sum of squares, column sums, running maximum). -/
def step (x : Vec F S1024x512 .f32) (p : Vec F S8x128 .f32 × Vec F S8x512 .f32 × Vec F S8x128 .f32) :
    Vec F S8x128 .f32 × Vec F S8x512 .f32 × Vec F S8x128 .f32 :=
  (k0_pay6 x p.1, k0_pay7 x p.2.1, k0_pay1 (k0_pay8 x p.2.2))

/-- The reset values: zero, zero, minus infinity. -/
def init : Vec F S8x128 .f32 × Vec F S8x512 .f32 × Vec F S8x128 .f32 := (k0_pay2, k0_pay3, k0_pay4)

/-- The accumulators after tile n. -/
def acc (c : Dev nD) : (n : ℕ) → n < cfg0.N → Vec F S8x128 .f32 × Vec F S8x512 .f32 × Vec F S8x128 .f32
  | 0, h => step (iblk m c 0 ⟨0, h⟩) init
  | n + 1, h => step (iblk m c 0 ⟨n + 1, h⟩) (acc c n (Nat.lt_of_succ_lt h))

/-- The carried scratch after tile n is the fold. -/
theorem scratch_eq (c : Dev nD) : ∀ (n : ℕ) (h : n < cfg0.N), (outsAt0 m c n h).2.2.2 = acc m c n h
  | 0, h => by
    rw [outsAt0_A m c ⟨0, h⟩ rfl (show ¬(0 : ℕ) % 8 = 7 by decide)]
    dsimp only
    rw [accA_sumsq, accA_sumvec, accA_max]
    rfl
  | n + 1, h => by
    have hN : cfg0.N = 8 := N_0
    have ih := scratch_eq c n (Nat.lt_of_succ_lt h)
    have h0 : ¬(⟨n + 1, h⟩ : Fin cfg0.N).val % 8 = 0 := by dsimp only; omega
    by_cases h1 : (⟨n + 1, h⟩ : Fin cfg0.N).val % 8 = 7
    · rw [outsAt0_C m c ⟨n + 1, h⟩ h0 h1]
      dsimp only
      rw [accC_sumsq, accC_sumvec, accC_max]
      show (k0_pay6 _ (outsAt0 m c n _).2.2.2.1, k0_pay7 _ (outsAt0 m c n _).2.2.2.2.1,
        k0_pay1 (k0_pay8 _ (outsAt0 m c n _).2.2.2.2.2)) = _
      rw [ih]; rfl
    · rw [outsAt0_B m c ⟨n + 1, h⟩ h0 h1]
      dsimp only
      rw [accB_sumsq, accB_sumvec, accB_max]
      show (k0_pay6 _ (outsAt0 m c n _).2.2.2.1, k0_pay7 _ (outsAt0 m c n _).2.2.2.2.1,
        k0_pay1 (k0_pay8 _ (outsAt0 m c n _).2.2.2.2.2)) = _
      rw [ih]; rfl

/-- At the last tile the three outputs' staging buffers receive the fold. -/
theorem outs_last (c : Dev nD) (h7 : 7 < cfg0.N) :
    ((outsAt0 m c 7 h7).1, (outsAt0 m c 7 h7).2.1, (outsAt0 m c 7 h7).2.2.1) = acc m c 7 h7 := by
  have ih := scratch_eq m c 6 (Nat.lt_of_succ_lt h7)
  rw [outsAt0_C m c ⟨7, h7⟩ (show ¬(7 : ℕ) % 8 = 0 by decide) rfl]
  dsimp only
  rw [outC_sumsq, outC_sumvec, outC_max]
  show (k0_pay6 _ (outsAt0 m c 6 _).2.2.2.1, k0_pay7 _ (outsAt0 m c 6 _).2.2.2.2.1,
    k0_pay1 (k0_pay8 _ (outsAt0 m c 6 _).2.2.2.2.2)) = _
  rw [ih]; rfl

end Cert.KernelIdeal.Accum

end
-- ==== Proof.Region.lean ====
import proofs.«177143_j52115133169717_2_alg».proof.Proof.Accum
import Idealize.ShloMosaic.Lib.StableHlo.Run

noncomputable section

open Idealize.ShloMosaic Idealize.ShloMosaic.TcCoe Idealize.SL.Sem
open Idealize.ShloMosaic.Pipeline (Dat)

/-! The kernel's whole run. Each of the three output arrays is one block, written back once, after the
    last tile, so it ends holding the accumulator after tile 7. The host lines after the region then
    compute the scalar result from the three arrays. -/

namespace Cert.KernelIdeal.Region

open Cert.KernelIdeal Cert.KernelIdeal.Gen Cert.KernelIdeal.Accum

variable {F : FTy → Type} [FloatOps F]
variable (m : (ℓ : Loc nD τ sig) → Buf (Elt F) ℓ) (ρ : Dev nD → PrngReg)

theorem h7 : 7 < cfg0.N := by rw [show cfg0.N = 8 from N_0]; decide

/-- The three accumulators after the last tile, as contents of the three output arrays. -/
abbrev res1 (c : Dev nD) : Buf (Elt F) ((c : Thread nD τ).loc main_v0_0) := (acc m c 7 h7).1
abbrev res2 (c : Dev nD) : Buf (Elt F) ((c : Thread nD τ).loc main_v0_1) := (acc m c 7 h7).2.1
abbrev res3 (c : Dev nD) : Buf (Elt F) ((c : Thread nD τ).loc main_v0_2) := (acc m c 7 h7).2.2

theorem outs_last' (c : Dev nD) : (outsAt0 m c 7 h7).1 = (acc m c 7 h7).1
    ∧ (outsAt0 m c 7 h7).2.1 = (acc m c 7 h7).2.1 ∧ (outsAt0 m c 7 h7).2.2.1 = (acc m c 7 h7).2.2 := by
  have h := outs_last m c h7
  rw [Prod.ext_iff, Prod.ext_iff] at h
  dsimp only at h
  exact h
theorem out1_last (c : Dev nD) : (outsAt0 m c 7 h7).1 = (acc m c 7 h7).1 := (outs_last' m c).1
theorem out2_last (c : Dev nD) : (outsAt0 m c 7 h7).2.1 = (acc m c 7 h7).2.1 := (outs_last' m c).2.1
theorem out3_last (c : Dev nD) : (outsAt0 m c 7 h7).2.2.1 = (acc m c 7 h7).2.2 := (outs_last' m c).2.2

/-- Output 1's one write-back, at the last tile, writes the accumulator: its block (0, 0) read through
    zero offsets is the whole array. -/
theorem flushed_eq1 (c : Dev nD) (t : Fin cfg0.N) (hf : (cfg0.win 1).flush t = true) :
    (dats m 0 c).flushed 1 t = ((cfg0.win 1).blk t).view.read (Elt F) (res1 m c) := by
  have hN : cfg0.N = 8 := N_0
  have h7' : t.val = 7 := by have := (flush0_1 t).mp hf; have := t.isLt; omega
  obtain rfl : t = t0_7 := Fin.ext h7'
  show (cfg0.win 1).cut (grid0.coords t0_7) ((dats m 0 c).after 1 t0_7) = _
  rw [after0_1]
  show (cfg0.win 1).cut (grid0.coords t0_7) (outsAt0 m c 7 h7).1 = _
  rw [out1_last]
  have hz' : (fun a => win0_1.index t0_7 a * main_v0_0.ty.shape.size a) = fun _ => 0 :=
    funext fun a => by fin_cases a <;> decide
  exact (Memref.read_access_unit_zero (Elt F) main_v0_0 hz' (fun a => by rw [congrFun hz' a]; simp) (res1 m c)).symm

/-- So output 1's array ends holding the accumulator: the last tile's block covers it. -/
theorem final1 (c : Dev nD) : (dats m 0 c).arrAt 1 cfg0.N = res1 m c :=
  (dats m 0 c).arrAt_eq_of_cover 1 (res1 m c) (flushed_eq1 m c) fun i =>
    ⟨t0_7, (flush0_1 t0_7).mpr rfl, by
      show i ∈ ((View.whole main_v0_0).slice (win0_1.rect t0_7)).set
      rw [View.set_slice_whole, Rect.mem_set_unit]
      intro a
      have h0 : (i 0 : Nat) < 8 := (i 0).isLt
      have h1 : (i 1 : Nat) < 128 := (i 1).isLt
      match a with
      | ⟨0, _⟩ =>
        show win0_1.index t0_7 0 * win0_1.size 0 ≤ (i 0 : Nat)
          ∧ (i 0 : Nat) < win0_1.index t0_7 0 * win0_1.size 0 + win0_1.xsize (grid0.coords t0_7) 0
        rw [show win0_1.index t0_7 0 * win0_1.size 0 = 0 from by decide +kernel,
          show win0_1.xsize (grid0.coords t0_7) 0 = 8 from by decide +kernel]; omega
      | ⟨1, _⟩ =>
        show win0_1.index t0_7 1 * win0_1.size 1 ≤ (i 1 : Nat)
          ∧ (i 1 : Nat) < win0_1.index t0_7 1 * win0_1.size 1 + win0_1.xsize (grid0.coords t0_7) 1
        rw [show win0_1.index t0_7 1 * win0_1.size 1 = 0 from by decide +kernel,
          show win0_1.xsize (grid0.coords t0_7) 1 = 128 from by decide +kernel]; omega⟩

/-- Output 2's one write-back, at the last tile, writes the accumulator: its block (0, 0) read through
    zero offsets is the whole array. -/
theorem flushed_eq2 (c : Dev nD) (t : Fin cfg0.N) (hf : (cfg0.win 2).flush t = true) :
    (dats m 0 c).flushed 2 t = ((cfg0.win 2).blk t).view.read (Elt F) (res2 m c) := by
  have hN : cfg0.N = 8 := N_0
  have h7' : t.val = 7 := by have := (flush0_2 t).mp hf; have := t.isLt; omega
  obtain rfl : t = t0_7 := Fin.ext h7'
  show (cfg0.win 2).cut (grid0.coords t0_7) ((dats m 0 c).after 2 t0_7) = _
  rw [after0_2]
  show (cfg0.win 2).cut (grid0.coords t0_7) (outsAt0 m c 7 h7).2.1 = _
  rw [out2_last]
  have hz' : (fun a => win0_2.index t0_7 a * main_v0_1.ty.shape.size a) = fun _ => 0 :=
    funext fun a => by fin_cases a <;> decide
  exact (Memref.read_access_unit_zero (Elt F) main_v0_1 hz' (fun a => by rw [congrFun hz' a]; simp) (res2 m c)).symm

/-- So output 2's array ends holding the accumulator: the last tile's block covers it. -/
theorem final2 (c : Dev nD) : (dats m 0 c).arrAt 2 cfg0.N = res2 m c :=
  (dats m 0 c).arrAt_eq_of_cover 2 (res2 m c) (flushed_eq2 m c) fun i =>
    ⟨t0_7, (flush0_2 t0_7).mpr rfl, by
      show i ∈ ((View.whole main_v0_1).slice (win0_2.rect t0_7)).set
      rw [View.set_slice_whole, Rect.mem_set_unit]
      intro a
      have h0 : (i 0 : Nat) < 8 := (i 0).isLt
      have h1 : (i 1 : Nat) < 512 := (i 1).isLt
      match a with
      | ⟨0, _⟩ =>
        show win0_2.index t0_7 0 * win0_2.size 0 ≤ (i 0 : Nat)
          ∧ (i 0 : Nat) < win0_2.index t0_7 0 * win0_2.size 0 + win0_2.xsize (grid0.coords t0_7) 0
        rw [show win0_2.index t0_7 0 * win0_2.size 0 = 0 from by decide +kernel,
          show win0_2.xsize (grid0.coords t0_7) 0 = 8 from by decide +kernel]; omega
      | ⟨1, _⟩ =>
        show win0_2.index t0_7 1 * win0_2.size 1 ≤ (i 1 : Nat)
          ∧ (i 1 : Nat) < win0_2.index t0_7 1 * win0_2.size 1 + win0_2.xsize (grid0.coords t0_7) 1
        rw [show win0_2.index t0_7 1 * win0_2.size 1 = 0 from by decide +kernel,
          show win0_2.xsize (grid0.coords t0_7) 1 = 512 from by decide +kernel]; omega⟩

/-- Output 3's one write-back, at the last tile, writes the accumulator: its block (0, 0) read through
    zero offsets is the whole array. -/
theorem flushed_eq3 (c : Dev nD) (t : Fin cfg0.N) (hf : (cfg0.win 3).flush t = true) :
    (dats m 0 c).flushed 3 t = ((cfg0.win 3).blk t).view.read (Elt F) (res3 m c) := by
  have hN : cfg0.N = 8 := N_0
  have h7' : t.val = 7 := by have := (flush0_3 t).mp hf; have := t.isLt; omega
  obtain rfl : t = t0_7 := Fin.ext h7'
  show (cfg0.win 3).cut (grid0.coords t0_7) ((dats m 0 c).after 3 t0_7) = _
  rw [after0_3]
  show (cfg0.win 3).cut (grid0.coords t0_7) (outsAt0 m c 7 h7).2.2.1 = _
  rw [out3_last]
  have hz' : (fun a => win0_3.index t0_7 a * main_v0_2.ty.shape.size a) = fun _ => 0 :=
    funext fun a => by fin_cases a <;> decide
  exact (Memref.read_access_unit_zero (Elt F) main_v0_2 hz' (fun a => by rw [congrFun hz' a]; simp) (res3 m c)).symm

/-- So output 3's array ends holding the accumulator: the last tile's block covers it. -/
theorem final3 (c : Dev nD) : (dats m 0 c).arrAt 3 cfg0.N = res3 m c :=
  (dats m 0 c).arrAt_eq_of_cover 3 (res3 m c) (flushed_eq3 m c) fun i =>
    ⟨t0_7, (flush0_3 t0_7).mpr rfl, by
      show i ∈ ((View.whole main_v0_2).slice (win0_3.rect t0_7)).set
      rw [View.set_slice_whole, Rect.mem_set_unit]
      intro a
      have h0 : (i 0 : Nat) < 8 := (i 0).isLt
      have h1 : (i 1 : Nat) < 128 := (i 1).isLt
      match a with
      | ⟨0, _⟩ =>
        show win0_3.index t0_7 0 * win0_3.size 0 ≤ (i 0 : Nat)
          ∧ (i 0 : Nat) < win0_3.index t0_7 0 * win0_3.size 0 + win0_3.xsize (grid0.coords t0_7) 0
        rw [show win0_3.index t0_7 0 * win0_3.size 0 = 0 from by decide +kernel,
          show win0_3.xsize (grid0.coords t0_7) 0 = 8 from by decide +kernel]; omega
      | ⟨1, _⟩ =>
        show win0_3.index t0_7 1 * win0_3.size 1 ≤ (i 1 : Nat)
          ∧ (i 1 : Nat) < win0_3.index t0_7 1 * win0_3.size 1 + win0_3.xsize (grid0.coords t0_7) 1
        rw [show win0_3.index t0_7 1 * win0_3.size 1 = 0 from by decide +kernel,
          show win0_3.xsize (grid0.coords t0_7) 1 = 128 from by decide +kernel]; omega⟩

/-- The host lines after the region, as one function of the three output arrays: the sum of all of the
    first, the column sums of the second squared and summed, the maximum of the third, and the quotient
    (8192 * S - |v|^2) / (sqrt(max) * count). -/
def tail (o1 : FVec F S8x128 .f32) (o2 : FVec F S8x512 .f32) (o3 : FVec F S8x128 .f32) : FVec F S_ .f32 :=
  Host.divf
    (subf (mulf (constant S_ .f32 0x46000000#32) (Host.reduceAdd o1 (constant S_ .f32 0x00000000#32) reducesTo_S8x128_S_d0_1 h_S_))
      (Host.reduceAdd
        (mulf (Host.reduceAdd o2 (constant S_ .f32 0x00000000#32) reducesTo_S8x512_S512_d0 h_S_)
          (Host.reduceAdd o2 (constant S_ .f32 0x00000000#32) reducesTo_S8x512_S512_d0 h_S_))
        (constant S_ .f32 0x00000000#32) reducesTo_S512_S_d0 h_S_))
    (mulf (Host.sqrt (Host.reduce FloatOps.maximumf o3 (constant S_ .f32 0xFF800000#32) reducesTo_S8x128_S_d0_1 h_S_))
      (constant S_ .f32 0x4BFFF800#32))

/-- What the lines after the region leave in the result buffer. -/
theorem tail_eq (c : Dev nD) :
    Pipeline.afterTail₀ cfgs (dats m) 0 (V0 m) [hostOps1] c main_v10
      = tail (res1 m c) (res2 m c) (res3 m c) := by
  unfold Pipeline.afterTail₀
  show StableHlo.after hostOps1 _ (Proc.devRef .tc main_v10) = _
  after_results
  rw [Pipeline.withArrays_arr spec0 launch0.win.arr_inj c _ _ 1, Pipeline.withArrays_arr spec0 launch0.win.arr_inj c _ _ 2,
    Pipeline.withArrays_arr spec0 launch0.win.arr_inj c _ _ 3]
  rw [final1, final2, final3]
  rfl

/-- The result buffer is no array of the region: it passes through it and is written by the lines after. -/
theorem result_mem_rest : main_v10 ∈ Pipeline.restRefs sig cfg0.spec :=
  Pipeline.mem_restRefs_of main_v10 rfl (by decide)

/-- The run, read: every weakly fair execution ends with the result buffer at the host lines' function of
    the three accumulators, and the argument unchanged. -/
theorem run : θ_run defs (onTc (τ := τ) (main (F := F))) ⟨m, fun _ => 0, ρ⟩ fun r => ∀ c : Dev nD,
      r.2.mem ((c : Thread nD τ).loc main_v10) = tail (res1 m c) (res2 m c) (res3 m c)
      ∧ r.2.mem ((c : Thread nD τ).loc main_arg0) = m ((c : Thread nD τ).loc main_arg0) :=
  (θ_run defs _ _).mono (fun _ h c => ⟨((h c).2 main_v10 result_mem_rest).trans (tail_eq m c),
      ((h c).1 0).trans (((dats m 0 c).arrAt_in 0 rfl _).trans ((A_eq m c 0).trans (V_main_arg0 m c)))⟩)
    (run_main m ρ)

end Cert.KernelIdeal.Region

end
-- ==== Proof.LibKeepdims.lean ====
/-
  Two layout operations of a row-wise reduction kept as a column, read at an index.

  A sum along the rows of an a × b array is a vector of length a; kept as an a × 1 column it is the same vector
  (entry (i, 0) is entry i), and broadcast back to a × b every entry of row p is the column's entry (p, 0).
  General in the extents; nothing here mentions a program.
-/
import Idealize.ShloMosaic.Lib.Pipeline.Value
import Idealize.ShloMosaic.Lib.ValueIdx

namespace Cert.Lib.Keepdims

open Idealize.ShloMosaic Idealize.ShloMosaic.ValueIdx

variable {α : Type}

/-- An `[a]` array cast to the column `[a, 1]` reads, at `(i, u)`, the operand at `i`, whatever the unit
    coordinate `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.LibSpread.lean ====
/-
  A one-entry array spread over a tile, read at an index.

  A 1 × 1 array broadcast to a × b has, at every (p, q), the operand's single entry. General in the
  extents; nothing here mentions a program.
-/
import Idealize.ShloMosaic.Lib.Pipeline.Value
import Idealize.ShloMosaic.Lib.ValueIdx

namespace Cert.Lib.Spread

open Idealize.ShloMosaic Idealize.ShloMosaic.ValueIdx

variable {α : Type}

/-- A `[1, 1]` array broadcast to `[a, b]` reads, at `(p, q)`, the operand's one entry. -/
theorem broadcastTo_11_ab_apply {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.Lib.Spread
-- ==== Proof.Tile.lean ====
import proofs.«177143_j52115133169717_2_alg».proof.Proof.Gen.KernelIdeal.Skeleton
import proofs.«177143_j52115133169717_2_alg».proof.Proof.LibKeepdims
import proofs.«177143_j52115133169717_2_alg».proof.Proof.LibSpread
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

/-! One tile's contribution, over the extended reals. For a 1024 × 512 tile x: the squared norm of row
    r, the tile's total of those, their maximum, and the column sums. The body adds the total times
    1/1024 to every entry of the first accumulator, the column sum of column d times 1/8 to every entry
    of column d of the second, and takes the entrywise maximum of the third with the tile's maximum. -/

namespace Cert.KernelIdeal.Tile

open Cert.KernelIdeal Cert.KernelIdeal.Gen

/-- Row r's squared norm. -/
def rowSq (x : FVec Ideal S1024x512 .f32) (r : Fin 1024) : EReal := ∑ d : Fin 512, x (ix2 r d) * x (ix2 r d)

/-- The tile's sum of squares. -/
def tileSq (x : FVec Ideal S1024x512 .f32) : EReal := ∑ r : Fin 1024, rowSq x r

/-- The largest row squared norm of the tile (minus infinity being the neutral start). -/
def tileMax (x : FVec Ideal S1024x512 .f32) : EReal :=
  (Finset.univ : Finset (Fin 1024)).fold max (Ideal.ofBits .f32 0xFF800000#32) (rowSq x)

/-- Column d's sum over the tile's rows. -/
def colSum (x : FVec Ideal S1024x512 .f32) (d : Fin 512) : EReal := ∑ r : Fin 1024, x (ix2 r d)

/-- The kept column of row sums of squares, read at (r, 0). -/
theorem rowsq_apply (x : FVec Ideal S1024x512 .f32) (r : Fin 1024) (u : Fin 1) :
    k0_pay5 (F := Ideal) x (ix2 r u) = rowSq x r := by
  unfold k0_pay5
  refine (Cert.Lib.Keepdims.shapeCast_a_a1_apply _ shapeCasts_S1024_S1024x1 r u).trans ?_
  refine (Ideal.multiReduction_add_single (mulf x x) 0x00000000#32 reduces_S1024x512_S1024 (.inl rfl) rfl (ix1 r)).trans ?_
  refine Finset.sum_congr rfl fun d _ => ?_
  exact congrArg (fun j => x j * x j) (funext fun a => Fin.ext (by match a with | ⟨0, _⟩ => rfl | ⟨1, _⟩ => rfl))

/-- The first accumulator's update at (a, b). -/
theorem sumsq_step_apply (x : FVec Ideal S1024x512 .f32) (p : FVec Ideal S8x128 .f32) (a : Fin 8) (b : Fin 128) :
    k0_pay6 (F := Ideal) x p (ix2 a b) = p (ix2 a b) + tileSq x * Ideal.ofBits .f32 0x3A800000#32 := by
  unfold k0_pay6
  refine (congrFun (shapeCast_self _ shapeCasts_S8x128_S8x128) _).trans ?_
  refine congrArg (p (ix2 a b) + ·) ?_
  refine (Cert.Lib.Spread.broadcastTo_11_ab_apply _ broadcasts_S1x1_S8x128 a b).trans ?_
  refine (congrFun (shapeCast_self _ shapeCasts_S1x1_S1x1) _).trans ?_
  refine congrArg (· * Ideal.ofBits .f32 0x3A800000#32) ?_
  refine (shapeCast_a_1a_apply _ shapeCasts_S1_S1x1 (0 : Fin 1) (0 : Fin 1)).trans ?_
  refine (Ideal.multiReduction_add_single (k0_pay5 (F := Ideal) x) 0x00000000#32 reduces_S1024x1_S1 (.inl rfl) rfl (ix1 (0 : Fin 1))).trans ?_
  refine Finset.sum_congr rfl fun r _ => ?_
  refine (congrArg (k0_pay5 (F := Ideal) x) (funext fun a => Fin.ext (by match a with | ⟨0, _⟩ => rfl | ⟨1, _⟩ => rfl))).trans
    (rowsq_apply x r (0 : Fin 1))

/-- The second accumulator's update at (a, d). -/
theorem sumvec_step_apply (x : FVec Ideal S1024x512 .f32) (p : FVec Ideal S8x512 .f32) (a : Fin 8) (d : Fin 512) :
    k0_pay7 (F := Ideal) x p (ix2 a d) = p (ix2 a d) + colSum x d * Ideal.ofBits .f32 0x3E000000#32 := by
  unfold k0_pay7
  refine (congrFun (shapeCast_self _ shapeCasts_S8x512_S8x512) _).trans ?_
  refine congrArg (p (ix2 a d) + ·) ?_
  refine (broadcastTo_1b_ab_apply _ broadcasts_S1x512_S8x512 a d).trans ?_
  refine (congrFun (shapeCast_self _ shapeCasts_S1x512_S1x512) _).trans ?_
  refine congrArg (· * Ideal.ofBits .f32 0x3E000000#32) ?_
  refine (shapeCast_a_1a_apply _ shapeCasts_S512_S1x512 (0 : Fin 1) d).trans ?_
  refine (Ideal.multiReduction_add_single x 0x00000000#32 reduces_S1024x512_S512 (.inl rfl) rfl (ix1 d)).trans ?_
  refine Finset.sum_congr rfl fun r _ => ?_
  exact congrArg x (funext fun a => Fin.ext (by match a with | ⟨0, _⟩ => rfl | ⟨1, _⟩ => rfl))

/-- The third accumulator's update at (a, b). -/
theorem max_step_apply (x : FVec Ideal S1024x512 .f32) (p : FVec Ideal S8x128 .f32) (a : Fin 8) (b : Fin 128) :
    k0_pay1 (F := Ideal) (k0_pay8 (F := Ideal) x p) (ix2 a b) = max (p (ix2 a b)) (tileMax x) := by
  unfold k0_pay1
  refine (congrFun (shapeCast_self _ shapeCasts_S8x128_S8x128) _).trans ?_
  unfold k0_pay8
  refine congrArg (max (p (ix2 a b)) ·) ?_
  refine (Cert.Lib.Spread.broadcastTo_11_ab_apply _ broadcasts_S1x1_S8x128 a b).trans ?_
  refine (congrFun (shapeCast_self _ shapeCasts_S1x1_S1x1) _).trans ?_
  refine (shapeCast_a_1a_apply _ shapeCasts_S1_S1x1 (0 : Fin 1) (0 : Fin 1)).trans ?_
  refine (Ideal.multiReduction_maximumf_single (k0_pay5 (F := Ideal) x) 0xFF800000#32 reduces_S1024x1_S1 (.inl rfl) rfl (ix1 (0 : Fin 1))).trans ?_
  unfold tileMax
  refine congrArg (fun f => (Finset.univ : Finset (Fin 1024)).fold max (Ideal.ofBits .f32 0xFF800000#32) f) ?_
  funext r
  exact (congrArg (k0_pay5 (F := Ideal) x) (funext fun a => Fin.ext (by match a with | ⟨0, _⟩ => rfl | ⟨1, _⟩ => rfl))).trans
    (rowsq_apply x r (0 : Fin 1))

/-- The reset values at an index. -/
theorem zero128_apply (i : S8x128.Idx) : k0_pay2 (F := Ideal) i = Ideal.ofBits .f32 0x00000000#32 := by
  unfold k0_pay2; exact congrFun (shapeCast_self _ shapeCasts_S8x128_S8x128) i
theorem zero512_apply (i : S8x512.Idx) : k0_pay3 (F := Ideal) i = Ideal.ofBits .f32 0x00000000#32 := by
  unfold k0_pay3; exact congrFun (shapeCast_self _ shapeCasts_S8x512_S8x512) i
theorem neginf128_apply (i : S8x128.Idx) : k0_pay4 (F := Ideal) i = Ideal.ofBits .f32 0xFF800000#32 := by
  unfold k0_pay4; exact congrFun (shapeCast_self _ shapeCasts_S8x128_S8x128) i

end Cert.KernelIdeal.Tile

end
-- ==== Proof.Consts.lean ====
/-
  The float words the two programs spell, as the extended reals they denote: zero, minus two, the row
  count 8192, the two spreading factors 1/1024 and 1/8, and minus infinity.
-/
import Idealize.ShloMosaic.PureOps.Ideal

noncomputable section

namespace Cert.Consts

open Idealize.ShloMosaic

/-- The word of +0.0 denotes 0. -/
theorem ofBits_zero : Ideal.ofBits .f32 0x00000000#32 = 0 := by
  simp [Ideal.ofBits, Ideal.ieee]

/-- The word of -2.0 denotes the real -2. -/
theorem ofBits_neg_two : Ideal.ofBits .f32 0xC0000000#32 = ((-2 : ℝ) : EReal) := by
  simp [Ideal.ofBits, Ideal.ieee, -EReal.coe_mul]; norm_num

/-- The word of 8192.0 denotes the real 8192. -/
theorem ofBits_8192 : Ideal.ofBits .f32 0x46000000#32 = ((8192 : ℝ) : EReal) := by
  simp [Ideal.ofBits, Ideal.ieee, -EReal.coe_mul]; norm_num

/-- The word of 2^-10 denotes the real 1/1024. -/
theorem ofBits_inv_1024 : Ideal.ofBits .f32 0x3A800000#32 = ((1 / 1024 : ℝ) : EReal) := by
  simp [Ideal.ofBits, Ideal.ieee, -EReal.coe_mul]; norm_num

/-- The word of 0.125 denotes the real 1/8. -/
theorem ofBits_inv_8 : Ideal.ofBits .f32 0x3E000000#32 = ((1 / 8 : ℝ) : EReal) := by
  simp [Ideal.ofBits, Ideal.ieee, -EReal.coe_mul]; norm_num

/-- The word of -inf denotes the bottom of the extended reals. -/
theorem ofBits_neg_inf : Ideal.ofBits .f32 0xFF800000#32 = (⊥ : EReal) := by
  simp [Ideal.ofBits, Ideal.ieee]

end Cert.Consts

end
-- ==== Proof.LibBlockSum.lean ====
/-
  A sum over nb * bs consecutive positions, taken block by block.

  Position bs * k + r is entry r of block k; summing every block's entries sums every position, and
  every position is entry (i mod bs) of block (i div bs). General in the block count and size; nothing
  here mentions a program.
-/
import Mathlib

namespace Cert.Lib.BlockSum

/-- Entry r of block k, as a position among nb * bs. -/
def pos {nb bs : ℕ} (k : Fin nb) (r : Fin bs) : Fin (nb * bs) := finProdFinEquiv (k, r)

theorem pos_val {nb bs : ℕ} (k : Fin nb) (r : Fin bs) : (pos k r).val = r.val + bs * k.val := rfl

/-- Summing block by block sums every position. -/
theorem sum_blocks {M : Type*} [AddCommMonoid M] (nb bs : ℕ) (f : Fin (nb * bs) → M) :
    ∑ k : Fin nb, ∑ r : Fin bs, f (pos k r) = ∑ i, f i := by
  rw [← Fintype.sum_prod_type']
  exact Fintype.sum_equiv finProdFinEquiv _ _ (fun x => by cases x; rfl)

/-- Every position is an entry of a block. -/
theorem exists_pos {nb bs : ℕ} (i : Fin (nb * bs)) : ∃ (k : Fin nb) (r : Fin bs), pos k r = i := by
  obtain ⟨⟨k, r⟩, h⟩ := (finProdFinEquiv (m := nb) (n := bs)).surjective i
  exact ⟨k, r, h⟩

end Cert.Lib.BlockSum
-- ==== Proof.KernelValue.lean ====
import proofs.«177143_j52115133169717_2_alg».proof.Proof.Region
import proofs.«177143_j52115133169717_2_alg».proof.Proof.Tile
import proofs.«177143_j52115133169717_2_alg».proof.Proof.Consts
import proofs.«177143_j52115133169717_2_alg».proof.Proof.LibBlockSum

noncomputable section

open Idealize.ShloMosaic Idealize.ShloMosaic.TcCoe Idealize.SL.Sem Idealize.ShloMosaic.ValueIdx

/-! The kernel's three accumulators in closed form, over the extended reals. Tile k is rows
    1024 k .. 1024 k + 1023 of the argument. After tile n the first accumulator holds, at every entry,
    0 plus the sum over the tiles so far of (tile's sum of squares) / 1024; the second, at every entry
    of column d, 0 plus the sum of (tile's column-d sum) / 8; the third, at every entry, the maximum
    of minus infinity and the tiles' largest row squared norms. -/

namespace Cert.KernelIdeal.Value

open Cert.KernelIdeal Cert.KernelIdeal.Gen Cert.KernelIdeal.Accum Cert.KernelIdeal.Region Cert.KernelIdeal.Tile

variable (m : (ℓ : Loc nD τ sig) → Buf (Elt Ideal) ℓ)

/-- Row r of tile k, as a row of the whole array. -/
def row (k : Fin 8) (r : Fin 1024) : Fin 8192 :=
  ⟨1024 * k.val + r.val, by have := k.isLt; have := r.isLt; omega⟩

/-- Row i's squared norm. -/
def sqE (X : FVec Ideal S8192x512 .f32) (i : Fin 8192) : EReal := ∑ d : Fin 512, X (ix2 i d) * X (ix2 i d)

/-- The argument array on core c, as extended reals. -/
abbrev argX (c : Dev nD) : FVec Ideal S8192x512 .f32 := m ((c : Thread nD τ).loc main_arg0)

/-- The window's block at tile t reads the argument's rows 1024 t + r. -/
theorem iblk_apply (c : Dev nD) (t : Fin cfg0.N) (ht : t.val < 8) (r : Fin 1024) (d : Fin 512) :
    (iblk m c 0 t : FVec Ideal S1024x512 .f32) (ix2 r d)
      = m ((c : Thread nD τ).loc main_arg0) (ix2 (row ⟨t.val, ht⟩ r) d) := by
  have hi : win0_0.index t 0 = t.val ∧ win0_0.index t 1 = 0 := by
    rcases fin_N0 t with rfl | rfl | rfl | rfl | rfl | rfl | rfl | rfl <;> decide
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = 1024 * t.val + r.val; rw [hi.1]; omega
  | ⟨1, _⟩ => show win0_0.index t 1 * 512 + 1 * d.val = d.val; rw [hi.2]; omega

/-- Tile k as a total function of k (the zero tile past the grid, never used). -/
def blk (c : Dev nD) (k : ℕ) : FVec Ideal S1024x512 .f32 :=
  if h : k < cfg0.N then iblk m c 0 ⟨k, h⟩ else fun _ => 0

theorem blk_eq (c : Dev nD) (k : ℕ) (h : k < cfg0.N) : blk m c k = iblk m c 0 ⟨k, h⟩ := dif_pos h

theorem blk_apply (c : Dev nD) (k : Fin 8) (r : Fin 1024) (d : Fin 512) :
    blk m c k.val (ix2 r d) = m ((c : Thread nD τ).loc main_arg0) (ix2 (row k r) d) := by
  have hk : k.val < cfg0.N := by rw [show cfg0.N = 8 from N_0]; exact k.isLt
  rw [blk_eq m c k.val hk]
  exact iblk_apply m c ⟨k.val, hk⟩ k.isLt r d

/-- The first accumulator after tile n. -/
theorem acc_sumsq (c : Dev nD) : ∀ (n : ℕ) (h : n < cfg0.N) (a : Fin 8) (b : Fin 128),
    (acc m c n h).1 (ix2 a b) = Ideal.ofBits .f32 0x00000000#32
      + ∑ k ∈ Finset.range (n + 1), tileSq (blk m c k) * Ideal.ofBits .f32 0x3A800000#32
  | 0, h, a, b => by
    show k0_pay6 (F := Ideal) (iblk m c 0 ⟨0, h⟩) (k0_pay2 (F := Ideal)) (ix2 a b) = _
    refine (sumsq_step_apply (iblk m c 0 ⟨0, h⟩) (k0_pay2 (F := Ideal)) a b).trans ?_
    rw [zero128_apply, Finset.sum_range_one, blk_eq m c 0 h]
  | n + 1, h, a, b => by
    show k0_pay6 (F := Ideal) (iblk m c 0 ⟨n + 1, h⟩) (acc m c n (Nat.lt_of_succ_lt h)).1 (ix2 a b) = _
    refine (sumsq_step_apply (iblk m c 0 ⟨n + 1, h⟩) (acc m c n (Nat.lt_of_succ_lt h)).1 a b).trans ?_
    rw [acc_sumsq c n _ a b, Finset.sum_range_succ _ (n + 1), blk_eq m c (n + 1) h, add_assoc]

/-- The second accumulator after tile n. -/
theorem acc_sumvec (c : Dev nD) : ∀ (n : ℕ) (h : n < cfg0.N) (a : Fin 8) (d : Fin 512),
    (acc m c n h).2.1 (ix2 a d) = Ideal.ofBits .f32 0x00000000#32
      + ∑ k ∈ Finset.range (n + 1), colSum (blk m c k) d * Ideal.ofBits .f32 0x3E000000#32
  | 0, h, a, d => by
    show k0_pay7 (F := Ideal) (iblk m c 0 ⟨0, h⟩) (k0_pay3 (F := Ideal)) (ix2 a d) = _
    refine (sumvec_step_apply (iblk m c 0 ⟨0, h⟩) (k0_pay3 (F := Ideal)) a d).trans ?_
    rw [zero512_apply, Finset.sum_range_one, blk_eq m c 0 h]
  | n + 1, h, a, d => by
    show k0_pay7 (F := Ideal) (iblk m c 0 ⟨n + 1, h⟩) (acc m c n (Nat.lt_of_succ_lt h)).2.1 (ix2 a d) = _
    refine (sumvec_step_apply (iblk m c 0 ⟨n + 1, h⟩) (acc m c n (Nat.lt_of_succ_lt h)).2.1 a d).trans ?_
    rw [acc_sumvec c n _ a d, Finset.sum_range_succ _ (n + 1), blk_eq m c (n + 1) h, add_assoc]

/-- The third accumulator after tile n. -/
theorem acc_max (c : Dev nD) : ∀ (n : ℕ) (h : n < cfg0.N) (a : Fin 8) (b : Fin 128),
    (acc m c n h).2.2 (ix2 a b)
      = (Finset.range (n + 1)).fold max (Ideal.ofBits .f32 0xFF800000#32) (fun k => tileMax (blk m c k))
  | 0, h, a, b => by
    show k0_pay1 (F := Ideal) (k0_pay8 (F := Ideal) (iblk m c 0 ⟨0, h⟩) (k0_pay4 (F := Ideal))) (ix2 a b) = _
    refine (max_step_apply (iblk m c 0 ⟨0, h⟩) (k0_pay4 (F := Ideal)) a b).trans ?_
    rw [neginf128_apply, Finset.range_one, Finset.fold_singleton, blk_eq m c 0 h, max_comm]
  | n + 1, h, a, b => by
    show k0_pay1 (F := Ideal) (k0_pay8 (F := Ideal) (iblk m c 0 ⟨n + 1, h⟩) (acc m c n (Nat.lt_of_succ_lt h)).2.2) (ix2 a b) = _
    refine (max_step_apply (iblk m c 0 ⟨n + 1, h⟩) (acc m c n (Nat.lt_of_succ_lt h)).2.2 a b).trans ?_
    rw [acc_max c n _ a b, Finset.range_add_one (n := n + 1), Finset.fold_insert Finset.notMem_range_self,
      blk_eq m c (n + 1) h, max_comm]

/-- Every row of the array is a row of a tile. -/
theorem exists_row (i : Fin 8192) : ∃ (k : Fin 8) (r : Fin 1024), row k r = i :=
  ⟨⟨i.val / 1024, by have := i.isLt; omega⟩, ⟨i.val % 1024, by omega⟩, Fin.ext (by
    show 1024 * (i.val / 1024) + i.val % 1024 = i.val; omega)⟩

/-- Summing tile by tile over the tiles' rows sums over every row of the array. -/
theorem sum_rows {M : Type*} [AddCommMonoid M] (f : Fin 8192 → M) :
    ∑ k : Fin 8, ∑ r : Fin 1024, f (row k r) = ∑ i, f i := by
  have h := Cert.Lib.BlockSum.sum_blocks 8 1024 (fun i : Fin (8 * 1024) => f ⟨i.val, i.isLt⟩)
  have e : (∑ i : Fin (8 * 1024), f ⟨i.val, i.isLt⟩) = ∑ i : Fin 8192, f i := rfl
  rw [← e, ← h]
  refine Finset.sum_congr rfl fun k _ => Finset.sum_congr rfl fun r _ => congrArg f (Fin.ext ?_)
  show 1024 * k.val + r.val = r.val + 1024 * k.val
  omega

/-- Tile k's sum of squares is the sum of its rows' squared norms in the array. -/
theorem tileSq_blk (c : Dev nD) (k : Fin 8) :
    tileSq (blk m c k.val) = ∑ r : Fin 1024, sqE (argX m c) (row k r) := by
  unfold tileSq rowSq sqE
  exact Finset.sum_congr rfl fun r _ => Finset.sum_congr rfl fun d _ => by rw [blk_apply m c k r d]

/-- Tile k's column sums. -/
theorem colSum_blk (c : Dev nD) (k : Fin 8) (d : Fin 512) :
    colSum (blk m c k.val) d = ∑ r : Fin 1024, argX m c (ix2 (row k r) d) := by
  unfold colSum
  exact Finset.sum_congr rfl fun r _ => blk_apply m c k r d

/-- Tile k's largest row squared norm. -/
theorem tileMax_blk (c : Dev nD) (k : Fin 8) :
    tileMax (blk m c k.val) = (Finset.univ : Finset (Fin 1024)).fold max (Ideal.ofBits .f32 0xFF800000#32)
      (fun r => sqE (argX m c) (row k r)) := by
  unfold tileMax
  refine congrArg (fun f => (Finset.univ : Finset (Fin 1024)).fold max (Ideal.ofBits .f32 0xFF800000#32) f) ?_
  funext r
  unfold rowSq sqE
  exact Finset.sum_congr rfl fun d _ => by rw [blk_apply m c k r d]

/-- The three output arrays after the run, as arrays of extended reals. -/
abbrev out1 (c : Dev nD) : FVec Ideal S8x128 .f32 := res1 m c
abbrev out2 (c : Dev nD) : FVec Ideal S8x512 .f32 := res2 m c
abbrev out3 (c : Dev nD) : FVec Ideal S8x128 .f32 := res3 m c

/-- The first output at (a, b): 0 plus the tiles' sums of squares, each over 1024. -/
theorem res1_apply (c : Dev nD) (a : Fin 8) (b : Fin 128) :
    out1 m c (ix2 a b) = Ideal.ofBits .f32 0x00000000#32
      + ∑ k : Fin 8, (∑ r : Fin 1024, sqE (argX m c) (row k r)) * Ideal.ofBits .f32 0x3A800000#32 := by
  show (acc m c 7 h7).1 (ix2 a b) = _
  rw [acc_sumsq m c 7 h7 a b]
  show _ + ∑ k ∈ Finset.range 8, _ = _
  rw [Finset.sum_range]
  exact congrArg (Ideal.ofBits .f32 0x00000000#32 + ·) (Finset.sum_congr rfl fun k _ => by rw [tileSq_blk m c k])

/-- The second output at (a, d): 0 plus the tiles' column-d sums, each over 8. -/
theorem res2_apply (c : Dev nD) (a : Fin 8) (d : Fin 512) :
    out2 m c (ix2 a d) = Ideal.ofBits .f32 0x00000000#32
      + ∑ k : Fin 8, (∑ r : Fin 1024, argX m c (ix2 (row k r) d)) * Ideal.ofBits .f32 0x3E000000#32 := by
  show (acc m c 7 h7).2.1 (ix2 a d) = _
  rw [acc_sumvec m c 7 h7 a d]
  show _ + ∑ k ∈ Finset.range 8, _ = _
  rw [Finset.sum_range]
  exact congrArg (Ideal.ofBits .f32 0x00000000#32 + ·) (Finset.sum_congr rfl fun k _ => by rw [colSum_blk m c k d])

/-- The third output at (a, b) is the least upper bound of the rows' squared norms: it is below u exactly
    when every row's squared norm is. -/
theorem res3_le_iff (c : Dev nD) (a : Fin 8) (b : Fin 128) (u : EReal) :
    out3 m c (ix2 a b) ≤ u ↔ ∀ i : Fin 8192, sqE (argX m c) i ≤ u := by
  show ((acc m c 7 h7).2.2 : FVec Ideal S8x128 .f32) (ix2 a b) ≤ u ↔ _
  rw [acc_max m c 7 h7 a b, Finset.fold_max_le]
  constructor
  · rintro ⟨_, h⟩ i
    obtain ⟨k, r, rfl⟩ := exists_row i
    have hk := h k.val (Finset.mem_range.mpr (by have := k.isLt; omega))
    rw [tileMax_blk m c k, Finset.fold_max_le] at hk
    exact hk.2 r (Finset.mem_univ _)
  · intro h
    refine ⟨by rw [Cert.Consts.ofBits_neg_inf]; exact bot_le, fun k hk => ?_⟩
    have hk8 : k < 8 := by have := Finset.mem_range.mp hk; omega
    have e := tileMax_blk m c ⟨k, hk8⟩
    rw [show ((⟨k, hk8⟩ : Fin 8).val) = k from rfl] at e
    rw [e, Finset.fold_max_le]
    exact ⟨by rw [Cert.Consts.ofBits_neg_inf]; exact bot_le, fun r _ => h _⟩

/-- A sum over the indices of a one-axis shape is the sum over the axis. -/
theorem sum_ix1 {M : Type*} [AddCommMonoid M] {n : ℕ} (f : (⟨1, ![n]⟩ : Shape).Idx → M) :
    ∑ i, f i = ∑ d : Fin n, f (ix1 d) :=
  (Fintype.sum_equiv ⟨fun d => ix1 d, fun i => i 0, fun d => rfl, fun i => (eq_ix1 i).symm⟩ _ _ (fun d => rfl)).symm

/-- Column d's total over the eight rows of the second output. -/
def colTot (o2 : FVec Ideal S8x512 .f32) (d : Fin 512) : EReal :=
  Ideal.ofBits .f32 0x00000000#32 + ∑ a : Fin 8, o2 (ix2 a d)

theorem tail_apply (o1 : FVec Ideal S8x128 .f32) (o2 : FVec Ideal S8x512 .f32) (o3 : FVec Ideal S8x128 .f32) (i : S_.Idx) :
    tail (F := Ideal) o1 o2 o3 i
      = Ideal.div
          (Ideal.ofBits .f32 0x46000000#32 * (Ideal.ofBits .f32 0x00000000#32 + ∑ a : Fin 8, ∑ b : Fin 128, o1 (ix2 a b))
            - (Ideal.ofBits .f32 0x00000000#32 + ∑ d : Fin 512, colTot o2 d * colTot o2 d))
          (Ideal.sqrt (Host.reduce (FloatOps.maximumf (F := Ideal) (φ := .f32)) o3 (constant (F := Ideal) S_ .f32 0xFF800000#32) reducesTo_S8x128_S_d0_1 h_S_ i)
            * Ideal.ofBits .f32 0x4BFFF800#32) := by
  unfold tail
  simp only [Host.divf, subf, mulf, Host.sqrt, constant, Host.reduceAdd, Ideal.hostReduceAdd_def, Ideal.hostDivf_def,
    Ideal.subf_def, Ideal.mulf_def, Ideal.hostUnary_sqrt_def, Ideal.ofBits_def]
  have hr2 : S8x512.Reduces [0] S512 := by decide
  have hcol : ∀ d : Fin 512,
      Ideal.hostReduceAdd reducesTo_S8x512_S512_d0 o2 (Ideal.ofBits .f32 0x00000000#32) (ix1 d) = colTot o2 d := by
    intro d
    rw [Ideal.hostReduceAdd_single reducesTo_S8x512_S512_d0 hr2]
    unfold colTot
    refine congrArg (Ideal.ofBits .f32 0x00000000#32 + ·) (Finset.sum_congr rfl fun a _ => congrArg o2
      (funext fun ax => Fin.ext (by match ax with | ⟨0, _⟩ => rfl | ⟨1, _⟩ => rfl)))
  have hsq : ∀ A : S512.Idx → EReal,
      Ideal.hostReduceAdd reducesTo_S512_S_d0 (mulf (F := Ideal) (φ := .f32) A A) (Ideal.ofBits .f32 0x00000000#32) i
        = Ideal.ofBits .f32 0x00000000#32 + ∑ d : Fin 512, A (ix1 d) * A (ix1 d) := by
    intro A
    rw [Ideal.hostReduceAdd_total reducesTo_S512_S_d0 (fun b => b.elim0), sum_ix1]
    rfl
  rw [hsq, Ideal.hostReduceAdd_total reducesTo_S8x128_S_d0_1 (fun b => b.elim0), sum_idx2]
  simp only [hcol]

end Cert.KernelIdeal.Value

end
-- ==== Proof.RefSide.lean ====
import proofs.«177143_j52115133169717_2_alg».proof.Defs
import proofs.«177143_j52115133169717_2_alg».proof.Proof.Gen.ReferenceIdeal.Read
import Idealize.ShloMosaic.Lib.Affine

noncomputable section

open Idealize.ShloMosaic Idealize.ShloMosaic.ValueIdx

/-! The reference, read entry by entry over the extended reals. Row r's squared norm is
    0 + sum_k x(r,k)^2; the Gram entry (p, q) is sum_k x(p,k) x(q,k); the masked distance matrix holds
    -2 * gram(p,q) + sq q + sq p strictly above the diagonal (p < q) and 0 elsewhere; the numerator is
    0 plus the sum of all its entries, the denominator sqrt(max_r sq r) times the pair count. -/

namespace Cert.ReferenceIdeal.RefValue

open Cert.ReferenceIdeal Cert.ReferenceIdeal.Read

/-- Row r's squared norm, as the reference computes it. -/
def rsq (X : FVec Ideal S8192x512 .f32) (r : Fin 8192) : EReal :=
  Ideal.ofBits .f32 0x00000000#32 + ∑ k : Fin 512, X (ix2 r k) * X (ix2 r k)

/-- The Gram entry of rows p and q. -/
def gram (X : FVec Ideal S8192x512 .f32) (p q : Fin 8192) : EReal := ∑ k : Fin 512, X (ix2 p k) * X (ix2 q k)

theorem rsq_apply (X : FVec Ideal S8192x512 .f32) (r : Fin 8192) :
    val_main_v1 (F := Ideal) X (ix1 r) = rsq X r := by
  rw [val_main_v1_apply]
  refine congrArg (Ideal.ofBits .f32 0x00000000#32 + ·) (Finset.sum_congr rfl fun k _ => ?_)
  rw [val_main_v0_apply]
  have e : idx_main_v1 (ix1 r) k = ix2 r k :=
    funext fun a => Fin.ext (by match a with | ⟨0, _⟩ => rfl | ⟨1, _⟩ => rfl)
  rw [e]; rfl

theorem gram_apply (X : FVec Ideal S8192x512 .f32) (p q : Fin 8192) :
    val_main_v3 (F := Ideal) X (ix2 p q) = gram X p q := by
  rw [val_main_v3_apply]
  refine Finset.sum_congr rfl fun k _ => ?_
  rw [val_main_v2_apply]
  have e1 : lidx_main_v3 (ix2 p q) k = ix2 p k :=
    funext fun a => Fin.ext (by match a with | ⟨0, _⟩ => rfl | ⟨1, _⟩ => rfl)
  have e2 : idx_main_v2 (ridx_main_v3 (ix2 p q) k) = ix2 q k :=
    funext fun a => Fin.ext (by match a with | ⟨0, _⟩ => rfl | ⟨1, _⟩ => rfl)
  rw [e1, e2]

/-- A row number below 8192, as a 32-bit word read signed, is itself. -/
theorem toInt_ofNat_small (n : ℕ) (h : n < 8192) : (BitVec.ofNat 32 n).toInt = (n : Int) := by
  rw [BitVec.toInt_eq_toNat_cond, BitVec.toNat_ofNat]
  have : n % 2 ^ 32 = n := Nat.mod_eq_of_lt (by omega)
  rw [this]
  split <;> omega

/-- The mask is one exactly strictly above the diagonal. -/
theorem mask_apply (p q : Fin 8192) :
    val_main_v13 (F := Ideal) (ix2 p q) = if p < q then 1#1 else 0#1 := by
  rw [val_main_v13_apply, val_main_call0_v4_apply, val_main_call0_v5_apply, val_main_v12_apply,
    val_main_call0_v2_apply, val_main_call0_v0_apply, val_main_call0_v1_apply, val_main_call0_v3_apply,
    val_main_call0_c_0_apply, val_main_c_apply, val_main_call0_c_apply]
  show Scalar.select (IntOp.cmpi .sge (IntOp.addi (BitVec.ofNat 32 p.val) 0#32) (BitVec.ofNat 32 q.val)) 0#1 1#1 = _
  have hadd : IntOp.addi (BitVec.ofNat 32 p.val) 0#32 = BitVec.ofNat 32 p.val := by
    simp [IntOp.addi]
  rw [hadd]
  by_cases h : p < q
  · rw [if_pos h]
    have hc : ¬ IntOp.cmpi .sge (BitVec.ofNat 32 p.val) (BitVec.ofNat 32 q.val) = 1#1 := by
      rw [IntOp.cmpi_sge, toInt_ofNat_small _ p.isLt, toInt_ofNat_small _ q.isLt]
      have : p.val < q.val := h
      omega
    rw [eq_zero_of_ne_one hc]; exact select_zero _ _
  · rw [if_neg h]
    have hc : IntOp.cmpi .sge (BitVec.ofNat 32 p.val) (BitVec.ofNat 32 q.val) = 1#1 := by
      rw [IntOp.cmpi_sge, toInt_ofNat_small _ p.isLt, toInt_ofNat_small _ q.isLt]
      have : ¬ p.val < q.val := h
      omega
    rw [hc]; exact select_one _ _

/-- The masked distance matrix at (p, q). -/
theorem masked_apply (X : FVec Ideal S8192x512 .f32) (p q : Fin 8192) :
    val_main_v16 (F := Ideal) X (ix2 p q)
      = if p < q then Ideal.ofBits .f32 0xC0000000#32 * gram X p q + rsq X q + rsq X p
        else Ideal.ofBits .f32 0x00000000#32 := by
  rw [val_main_v16_apply, mask_apply]
  by_cases h : p < q
  · rw [if_pos h, if_pos h, select_one, val_main_v11_apply, val_main_v8_apply, val_main_v5_apply, val_main_v4_apply,
      val_main_cst_0_apply, gram_apply, val_main_v7_apply, val_main_v6_apply, val_main_v10_apply, val_main_v9_apply]
    have e1 : idx_main_v6 (idx_main_v7 (ix2 p q)) = ix1 q :=
      funext fun a => Fin.ext (by match a with | ⟨0, _⟩ => rfl)
    have e2 : idx_main_v9 (idx_main_v10 (ix2 p q)) = ix1 p :=
      funext fun a => Fin.ext (by match a with | ⟨0, _⟩ => rfl)
    rw [e1, e2, rsq_apply, rsq_apply]
    rfl
  · rw [if_neg h, if_neg h, select_zero, val_main_call1_v1_apply, val_main_call1_v0_apply, val_main_cst_2_apply]
    rfl

/-- The reference's result: the total of the masked matrix over sqrt(max squared norm) times the count. -/
theorem result_apply (X : FVec Ideal S8192x512 .f32) (i : S_.Idx) :
    val_main_v19 (F := Ideal) X i
      = Ideal.div (Ideal.ofBits .f32 0x00000000#32 + ∑ p : Fin 8192, ∑ q : Fin 8192, val_main_v16 (F := Ideal) X (ix2 p q))
          (Ideal.hostUnary .sqrt (val_main_v14 (F := Ideal) X i) * Ideal.ofBits .f32 0x4BFFF800#32) := by
  rw [val_main_v19_apply, val_main_v17_apply, val_main_v18_apply, val_main_v15_apply, val_main_cst_4_apply, sum_idx2]
  rfl

end Cert.ReferenceIdeal.RefValue

end
-- ==== Proof.PairSum.lean ====
/-
  The algebra that joins the two programs, over the reals.

  For points a_i (i in a finite linearly ordered index set) with coordinates a_i k, write
  sq i = sum_k (a_i k)^2, S = sum_i sq i and v k = sum_i a_i k. The sum over the strict upper
  triangle of the squared distances  -2 <a_i, a_j> + sq j + sq i  is  n * S - sum_k (v k)^2.
  The squared distance is symmetric and vanishes on the diagonal, so the full double sum is twice the
  triangle; the full double sum of the inner products factors as sum_k (v k)^2.
-/
import Mathlib

namespace Cert.PairSum

open Finset

/-- A symmetric kernel that vanishes on the diagonal sums, over all pairs, to twice its sum over the
    strict upper triangle. -/
theorem sum_all_eq_two_mul_upper {ι : Type*} [Fintype ι] [LinearOrder ι] (f : ι → ι → ℝ)
    (hs : ∀ i j, f i j = f j i) (hd : ∀ i, f i i = 0) :
    ∑ i, ∑ j, f i j = 2 * ∑ i, ∑ j, (if i < j then f i j else 0) := by
  have h1 : ∀ i j, f i j = (if i < j then f i j else 0) + (if j < i then f j i else 0) := by
    intro i j
    rcases lt_trichotomy i j with h | h | h
    · simp [h, not_lt.mpr h.le]
    · subst h; simp [hd]
    · simp [h, not_lt.mpr h.le, hs i j]
  have h2 : ∑ i, ∑ j, (if j < i then f j i else 0) = ∑ i, ∑ j, (if i < j then f i j else 0) :=
    Finset.sum_comm
  calc ∑ i, ∑ j, f i j
      = ∑ i, ∑ j, ((if i < j then f i j else 0) + (if j < i then f j i else 0)) :=
        Finset.sum_congr rfl fun i _ => Finset.sum_congr rfl fun j _ => h1 i j
    _ = 2 * ∑ i, ∑ j, (if i < j then f i j else 0) := by
        simp only [Finset.sum_add_distrib]; rw [h2]; ring

/-- The double sum of the inner products is the squared norm of the sum of the points. -/
theorem sum_inner_eq {ι κ : Type*} [Fintype ι] [Fintype κ] (a : ι → κ → ℝ) :
    ∑ i, ∑ j, ∑ k, a i k * a j k = ∑ k, (∑ i, a i k) * (∑ i, a i k) := by
  calc ∑ i, ∑ j, ∑ k, a i k * a j k
      = ∑ i, ∑ k, ∑ j, a i k * a j k := Finset.sum_congr rfl fun i _ => Finset.sum_comm
    _ = ∑ k, ∑ i, ∑ j, a i k * a j k := Finset.sum_comm
    _ = ∑ k, (∑ i, a i k) * (∑ i, a i k) := by
        refine Finset.sum_congr rfl fun k _ => ?_
        rw [Finset.sum_mul_sum]

/-- The pairwise squared distances over the strict upper triangle sum to n * S - |v|^2. -/
theorem upper_dist_sum {ι κ : Type*} [Fintype ι] [LinearOrder ι] [Fintype κ] (a : ι → κ → ℝ) :
    ∑ i, ∑ j, (if i < j then
        (-2 : ℝ) * (∑ k, a i k * a j k) + (∑ k, a j k * a j k) + (∑ k, a i k * a i k) else 0)
      = (Fintype.card ι : ℝ) * (∑ i, ∑ k, a i k * a i k) - ∑ k, (∑ i, a i k) * (∑ i, a i k) := by
  set f : ι → ι → ℝ := fun i j =>
    (-2 : ℝ) * (∑ k, a i k * a j k) + (∑ k, a j k * a j k) + (∑ k, a i k * a i k) with hf
  have hs : ∀ i j, f i j = f j i := by
    intro i j
    have : ∑ k, a i k * a j k = ∑ k, a j k * a i k :=
      Finset.sum_congr rfl fun k _ => mul_comm _ _
    simp only [hf]; rw [this]; ring
  have hd : ∀ i, f i i = 0 := by intro i; simp only [hf]; ring
  have hall : ∑ i, ∑ j, f i j
      = 2 * ((Fintype.card ι : ℝ) * (∑ i, ∑ k, a i k * a i k) - ∑ k, (∑ i, a i k) * (∑ i, a i k)) := by
    simp only [hf, Finset.sum_add_distrib, ← Finset.mul_sum, Finset.sum_const, Finset.card_univ,
      nsmul_eq_mul]
    rw [sum_inner_eq a]
    ring
  have h2 := sum_all_eq_two_mul_upper f hs hd
  have : (2 : ℝ) * ∑ i, ∑ j, (if i < j then f i j else 0)
      = 2 * ((Fintype.card ι : ℝ) * (∑ i, ∑ k, a i k * a i k) - ∑ k, (∑ i, a i k) * (∑ i, a i k)) := by
    rw [← h2, hall]
  exact mul_left_cancel₀ (two_ne_zero) this

end Cert.PairSum
-- ==== Proof.Finite.lean ====
import proofs.«177143_j52115133169717_2_alg».proof.Defs
import Idealize.ShloMosaic.Lib.ReduceAll
import Idealize.ShloMosaic.Lib.ValueIdx

noncomputable section

open Idealize.ShloMosaic

/-! The precondition, read back: when the test "every |x| is below +inf" is all ones, every entry of the
    argument is a real number (neither infinity). -/

namespace Cert.Finite

instance : Subsingleton Cert.Pre_finite_inputs.S_.Idx := ⟨fun a b => funext fun d => d.elim0⟩

/-- The word of +inf denotes the top of the extended reals. -/
theorem ofBits_pos_inf : Ideal.ofBits .f32 0x7F800000#32 = (⊤ : EReal) := by
  simp [Ideal.ofBits, Ideal.ieee]

/-- An extended real whose absolute value is below +inf is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Under the precondition every entry of the argument is a real number. -/
theorem real_of_pre [hP : Cert.Pre_finite_inputs.Facts] (X : FVec Ideal Cert.Pre_finite_inputs.S8192x512 .f32)
    (h : Cert.Pre_finite_inputs.fn (F := Ideal) X = fun _ => 1#1) (i : Cert.Pre_finite_inputs.S8192x512.Idx) :
    ∃ r : ℝ, X i = (r : EReal) := by
  have h0 := congrFun h ValueIdx.ix0
  dsimp only [Cert.Pre_finite_inputs.fn] at h0
  have hi := Host.reduce_andi_all _ _ _ _ _ h0 i
  have hlt : max (X i) (-(X i)) < Ideal.ofBits .f32 0x7F800000#32 := by
    have : Ideal.cmp .olt (max (X i) (-(X i))) (Ideal.ofBits .f32 0x7F800000#32) = 1#1 := hi
    unfold Ideal.cmp at this
    by_contra hn
    simp [hn] at this
  rw [ofBits_pos_inf] at hlt
  exact real_of_abs_lt_top _ hlt

end Cert.Finite

end
-- ==== Proof.Bridge.lean ====
import proofs.«177143_j52115133169717_2_alg».proof.Proof.KernelValue
import proofs.«177143_j52115133169717_2_alg».proof.Proof.RefSide
import proofs.«177143_j52115133169717_2_alg».proof.Proof.PairSum
import proofs.«177143_j52115133169717_2_alg».proof.Proof.Finite

noncomputable section

open Idealize.ShloMosaic Idealize.ShloMosaic.TcCoe Idealize.SL.Sem Idealize.ShloMosaic.ValueIdx

/-! The two programs meet. When every entry of the argument is a real number A i d, both numerators are
    the real 8192 * S - |v|^2 (S the sum of all squares, v the column sums): the reference's by the
    identity for the strict upper triangle of pairwise squared distances, the kernel's because 1024
    entries of S / 1024 sum to S and 8 entries of v_d / 8 sum to v_d. Both denominators are the square
    root of the largest row squared norm times the same pair count: the kernel's tile-by-tile maximum
    and the reference's maximum over all rows have the same upper bounds. -/

namespace Cert.Bridge

open Cert.KernelIdeal.Value Cert.KernelIdeal.Region Cert.ReferenceIdeal.RefValue

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable (A : Fin 8192 → Fin 512 → ℝ)

/-- The common numerator: 8192 * (sum of all squares) - (squared norm of the column sums). -/
def num : ℝ := (8192 : ℝ) * (∑ i, ∑ k, A i k * A i k) - ∑ k, (∑ i, A i k) * (∑ i, A i k)

section Ref

variable (X : FVec Ideal Cert.ReferenceIdeal.S8192x512 .f32) (hX : ∀ i d, X (ix2 i d) = (A i d : EReal))
include hX

theorem rsq_real (r : Fin 8192) : rsq X r = ((∑ k, A r k * A r k : ℝ) : EReal) := by
  unfold rsq
  rw [Cert.Consts.ofBits_zero, zero_add, coe_sum]
  exact Finset.sum_congr rfl fun k _ => by rw [hX, EReal.coe_mul]

theorem gram_real (p q : Fin 8192) : gram X p q = ((∑ k, A p k * A q k : ℝ) : EReal) := by
  unfold gram
  rw [coe_sum]
  exact Finset.sum_congr rfl fun k _ => by rw [hX, hX, EReal.coe_mul]

theorem masked_real (p q : Fin 8192) :
    Cert.ReferenceIdeal.Read.val_main_v16 (F := Ideal) X (ix2 p q)
      = ((if p < q then (-2 : ℝ) * (∑ k, A p k * A q k) + (∑ k, A q k * A q k) + (∑ k, A p k * A p k) else 0 : ℝ) : EReal) := by
  rw [masked_apply]
  by_cases h : p < q
  · rw [if_pos h, if_pos h, Cert.Consts.ofBits_neg_two, gram_real A X hX, rsq_real A X hX, rsq_real A X hX,
      ← EReal.coe_mul, ← EReal.coe_add, ← EReal.coe_add]
  · rw [if_neg h, if_neg h, Cert.Consts.ofBits_zero, EReal.coe_zero]

/-- The reference's numerator. -/
theorem ref_num :
    Ideal.ofBits .f32 0x00000000#32 + ∑ p : Fin 8192, ∑ q : Fin 8192, Cert.ReferenceIdeal.Read.val_main_v16 (F := Ideal) X (ix2 p q)
      = ((num A : ℝ) : EReal) := by
  rw [Cert.Consts.ofBits_zero, zero_add]
  have h1 : ∀ p : Fin 8192, ∑ q : Fin 8192, Cert.ReferenceIdeal.Read.val_main_v16 (F := Ideal) X (ix2 p q)
      = ((∑ q : Fin 8192, (if p < q then (-2 : ℝ) * (∑ k, A p k * A q k) + (∑ k, A q k * A q k) + (∑ k, A p k * A p k) else 0) : ℝ) : EReal) := by
    intro p
    rw [coe_sum]
    exact Finset.sum_congr rfl fun q _ => masked_real A X hX p q
  rw [Finset.sum_congr rfl fun p _ => h1 p, ← coe_sum, Cert.PairSum.upper_dist_sum A, Fintype.card_fin]
  unfold num
  norm_num

/-- The reference's maximum is below u exactly when every row's squared norm is. -/
theorem ref_max_le_iff (i : Cert.ReferenceIdeal.S_.Idx) (u : EReal) :
    Cert.ReferenceIdeal.Read.val_main_v14 (F := Ideal) X i ≤ u ↔ ∀ r : Fin 8192, ((∑ k, A r k * A r k : ℝ) : EReal) ≤ u := by
  unfold Cert.ReferenceIdeal.Read.val_main_v14
  rw [Host.reduce_eq_fold]
  show Finset.fold max _ _ _ ≤ u ↔ _
  rw [Finset.fold_max_le]
  constructor
  · rintro ⟨_, h⟩ r
    have := h (ix1 r) (Finset.mem_filter.mpr ⟨Finset.mem_univ _, Subsingleton.elim _ _⟩)
    rwa [rsq_apply, rsq_real A X hX] at this
  · intro h
    refine ⟨?_, fun j _ => ?_⟩
    · show Ideal.ofBits .f32 0xFF800000#32 ≤ u
      rw [Cert.Consts.ofBits_neg_inf]; exact bot_le
    · obtain ⟨r, rfl⟩ : ∃ r : Fin 8192, j = ix1 r := ⟨j 0, eq_ix1 j⟩
      rw [rsq_apply, rsq_real A X hX]; exact h _

end Ref

section Ker

open Cert.KernelIdeal Cert.KernelIdeal.Gen

variable (m : (ℓ : Loc nD τ sig) → Buf (Elt Ideal) ℓ) (c : Dev nD)
  (hX : ∀ i d, argX m c (ix2 i d) = (A i d : EReal))
include hX

theorem sqE_real (i : Fin 8192) : sqE (argX m c) i = ((∑ k, A i k * A i k : ℝ) : EReal) := by
  unfold sqE
  rw [coe_sum]
  exact Finset.sum_congr rfl fun k _ => by rw [hX, EReal.coe_mul]

/-- Every entry of the first output is S / 1024. -/
theorem out1_real (a : Fin 8) (b : Fin 128) :
    out1 m c (ix2 a b) = (((∑ i, ∑ k, A i k * A i k) * (1 / 1024) : ℝ) : EReal) := by
  rw [res1_apply, Cert.Consts.ofBits_zero, zero_add, Cert.Consts.ofBits_inv_1024]
  have h : ∀ k : Fin 8, (∑ r : Fin 1024, sqE (argX m c) (row k r)) * ((1 / 1024 : ℝ) : EReal)
      = (((∑ r : Fin 1024, ∑ d, A (row k r) d * A (row k r) d) * (1 / 1024) : ℝ) : EReal) := by
    intro k
    rw [EReal.coe_mul, coe_sum]
    exact congrArg (· * ((1 / 1024 : ℝ) : EReal)) (Finset.sum_congr rfl fun r _ => sqE_real A m c hX _)
  rw [Finset.sum_congr rfl fun k _ => h k, ← coe_sum, ← Finset.sum_mul, sum_rows (fun i => ∑ d, A i d * A i d)]

/-- Column d of the second output totals to the column sum v_d. -/
theorem colTot_real (d : Fin 512) : colTot (out2 m c) d = ((∑ i, A i d : ℝ) : EReal) := by
  unfold colTot
  have h : ∀ a : Fin 8, out2 m c (ix2 a d) = (((∑ i, A i d) * (1 / 8) : ℝ) : EReal) := by
    intro a
    rw [res2_apply, Cert.Consts.ofBits_zero, zero_add, Cert.Consts.ofBits_inv_8]
    have hk : ∀ k : Fin 8, (∑ r : Fin 1024, argX m c (ix2 (row k r) d)) * ((1 / 8 : ℝ) : EReal)
        = (((∑ r : Fin 1024, A (row k r) d) * (1 / 8) : ℝ) : EReal) := by
      intro k
      rw [EReal.coe_mul, coe_sum]
      exact congrArg (· * ((1 / 8 : ℝ) : EReal)) (Finset.sum_congr rfl fun r _ => hX _ _)
    rw [Finset.sum_congr rfl fun k _ => hk k, ← coe_sum, ← Finset.sum_mul, sum_rows (fun i => A i d)]
  rw [Finset.sum_congr rfl fun a _ => h a, ← coe_sum, Cert.Consts.ofBits_zero, zero_add]
  refine congrArg (fun x : ℝ => (x : EReal)) ?_
  rw [Finset.sum_const, Finset.card_univ, Fintype.card_fin]
  simp only [nsmul_eq_mul]
  push_cast
  ring

/-- The kernel's numerator. -/
theorem ker_num :
    Ideal.ofBits .f32 0x46000000#32 * (Ideal.ofBits .f32 0x00000000#32 + ∑ a : Fin 8, ∑ b : Fin 128, out1 m c (ix2 a b))
        - (Ideal.ofBits .f32 0x00000000#32 + ∑ d : Fin 512, colTot (out2 m c) d * colTot (out2 m c) d)
      = ((num A : ℝ) : EReal) := by
  have h1 : ∑ a : Fin 8, ∑ b : Fin 128, out1 m c (ix2 a b) = ((∑ i, ∑ k, A i k * A i k : ℝ) : EReal) := by
    have hb : ∀ a : Fin 8, ∑ b : Fin 128, out1 m c (ix2 a b)
        = ((∑ b : Fin 128, (∑ i, ∑ k, A i k * A i k) * (1 / 1024) : ℝ) : EReal) := by
      intro a
      rw [coe_sum]
      exact Finset.sum_congr rfl fun b _ => out1_real A m c hX a b
    rw [Finset.sum_congr rfl fun a _ => hb a, ← coe_sum]
    refine congrArg (fun x : ℝ => (x : EReal)) ?_
    simp only [Finset.sum_const, Finset.card_univ, Fintype.card_fin, nsmul_eq_mul]
    push_cast
    ring
  have h2 : ∑ d : Fin 512, colTot (out2 m c) d * colTot (out2 m c) d
      = ((∑ d, (∑ i, A i d) * (∑ i, A i d) : ℝ) : EReal) := by
    rw [coe_sum]
    exact Finset.sum_congr rfl fun d _ => by rw [colTot_real A m c hX d, EReal.coe_mul]
  rw [h1, h2, Cert.Consts.ofBits_8192, Cert.Consts.ofBits_zero, zero_add, zero_add, ← EReal.coe_mul, ← EReal.coe_sub]
  rfl

/-- The kernel's maximum is below u exactly when every row's squared norm is. -/
theorem ker_max_le_iff (i : S_.Idx) (u : EReal) :
    Host.reduce (FloatOps.maximumf (F := Ideal) (φ := .f32)) (out3 m c) (constant (F := Ideal) S_ .f32 0xFF800000#32)
        reducesTo_S8x128_S_d0_1 h_S_ i ≤ u
      ↔ ∀ r : Fin 8192, ((∑ k, A r k * A r k : ℝ) : EReal) ≤ u := by
  rw [Host.reduce_eq_fold]
  show Finset.fold max _ _ _ ≤ u ↔ _
  rw [Finset.fold_max_le]
  constructor
  · rintro ⟨_, h⟩ r
    have h0 := h (ix2 (0 : Fin 8) (0 : Fin 128)) (Finset.mem_filter.mpr ⟨Finset.mem_univ _, Subsingleton.elim _ _⟩)
    have h00 : out3 m c (ix2 (0 : Fin 8) (0 : Fin 128)) ≤ u := h0
    rw [res3_le_iff] at h00
    have := h00 r
    rwa [sqE_real A m c hX] at this
  · intro h
    refine ⟨?_, fun j _ => ?_⟩
    · show Ideal.ofBits .f32 0xFF800000#32 ≤ u
      rw [Cert.Consts.ofBits_neg_inf]; exact bot_le
    · obtain ⟨a, b, rfl⟩ : ∃ (a : Fin 8) (b : Fin 128), j = ix2 a b := ⟨j 0, j 1, eq_ix2 j⟩
      show out3 m c (ix2 a b) ≤ u
      rw [res3_le_iff]
      intro r
      rw [sqE_real A m c hX]; exact h r

end Ker

/-- THE BRIDGE. On an argument all of whose entries are real, the reference's result is the kernel's. -/
theorem result_eq (m : (ℓ : Loc Cert.KernelIdeal.nD Cert.KernelIdeal.τ Cert.KernelIdeal.sig) → Buf (Elt Ideal) ℓ)
    (c : Dev Cert.KernelIdeal.nD) (X' : FVec Ideal Cert.ReferenceIdeal.S8192x512 .f32) (hag : X' = argX m c)
    (hfin : ∀ j, ∃ r : ℝ, argX m c j = (r : EReal)) :
    Cert.ReferenceIdeal.Read.val_main_v19 (F := Ideal) X' = tail (F := Ideal) (out1 m c) (out2 m c) (out3 m c) := by
  subst hag
  choose f hf using hfin
  have hX : ∀ i d, argX m c (ix2 i d) = ((fun i d => f (ix2 i d)) i d : EReal) := fun i d => hf _
  funext i
  have hM : Cert.ReferenceIdeal.Read.val_main_v14 (F := Ideal) (argX m c) i
      = Host.reduce (FloatOps.maximumf (F := Ideal) (φ := .f32)) (out3 m c) (constant (F := Ideal) Cert.KernelIdeal.S_ .f32 0xFF800000#32)
          Cert.KernelIdeal.Gen.reducesTo_S8x128_S_d0_1 Cert.KernelIdeal.Gen.h_S_ i :=
    eq_of_forall_ge_iff fun u => by rw [ref_max_le_iff _ _ hX, ker_max_le_iff _ m c hX]
  rw [result_apply, hM, tail_apply, ref_num _ _ hX, ker_num _ m c hX]
  rfl

end Cert.Bridge

end
-- ==== Proof.lean ====
/-
  The normalized pairwise-distance loss of 8192 points in 512 dimensions, computed two ways.

  The reference forms the 8192 x 8192 matrix of squared distances  -2 <x_i, x_j> + |x_j|^2 + |x_i|^2,
  keeps its strict upper triangle, sums it, and divides by sqrt(max_i |x_i|^2) times the number of pairs.
  The kernel reads the points once, in eight tiles of 1024 rows, carrying three accumulators across the
  tiles: the sum of all squares S (spread as S / 1024 over a tile of 1024 entries), the column sums v
  (spread as v / 8 over eight rows), and the running maximum of the rows' squared norms; after the last
  tile the host adds the spread entries back up and returns (8192 * S - |v|^2) / (sqrt(max) * pairs).

  Over the extended reals the two agree on every argument whose entries are real numbers: the
  strict-upper-triangle sum of the squared distances is n * S - |v|^2 (the distance kernel is symmetric
  and vanishes on the diagonal, and the double sum of the inner products is |v|^2), 1024 copies of
  S / 1024 sum to S and 8 copies of v_d / 8 to v_d, and the tile-by-tile maximum has the same upper
  bounds as the maximum over all rows. The ideal pass rewrote nothing, so its conjunct is trivial.
-/
import proofs.«177143_j52115133169717_2_alg».proof.Defs
import proofs.«177143_j52115133169717_2_alg».proof.Proof.Gen.Kernel
import proofs.«177143_j52115133169717_2_alg».proof.Proof.Gen.Kernel.Frame
import proofs.«177143_j52115133169717_2_alg».proof.Proof.Gen.KernelIdeal
import proofs.«177143_j52115133169717_2_alg».proof.Proof.Gen.KernelIdeal.Frame
import proofs.«177143_j52115133169717_2_alg».proof.Proof.Gen.ReferenceIdeal
import proofs.«177143_j52115133169717_2_alg».proof.Proof.Gen.ReferenceIdeal.Run
import proofs.«177143_j52115133169717_2_alg».proof.Proof.Gen.Pre_finite_inputs
import proofs.«177143_j52115133169717_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run; the kernel's result is the host lines' function of the three accumulators, the
    reference's is its own term of an argument that agrees, and under the precondition (every entry a
    real number) the two are one extended real. -/
theorem algebraic : Cert.algebraic_KernelIdeal_ReferenceIdeal := by
  intro m ρ m' ρ' hpre hagree
  refine ⟨fun c => Cert.KernelIdeal.Region.tail (F := Ideal) (Cert.KernelIdeal.Region.res1 m c) (Cert.KernelIdeal.Region.res2 m c)
    (Cert.KernelIdeal.Region.res3 m c), ?_, ?_⟩
  · exact Cert.KernelIdeal.Region.run m ρ
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v19_eq _).trans ?_
    exact Cert.Bridge.result_eq m c _ (hagree c) (fun j => Cert.Finite.real_of_pre _ (hpre c) j)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
